-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S128x3 .f32) (main_arg10 : FVec F S3 .f32) (main_v33 : IVec S_ 1) : IVec S_ 1 :=
  let main_v34 : FVec F S128x3 .f32 := Host.absf main_arg9
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x3 .f32) (main_arg10 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x3 .f32) (main_arg10 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S10000x128 : Shape := ⟨2, ![10000, 128]⟩
abbrev S64x128 : Shape := ⟨2, ![64, 128]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 118
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x3, .f32⟩
  | .hbm, ⟨10, _⟩ => ⟨S3, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .bf16⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000x128, .bf16⟩
  | .hbm, ⟨45, _⟩ => ⟨S1700000x128, .f32⟩
  | .hbm, ⟨46, _⟩ => ⟨S_, .f32⟩
  | .hbm, ⟨47, _⟩ => ⟨S100000x128, .f32⟩
  | .hbm, ⟨48, _⟩ => ⟨S1700000x1, .i32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .bf16⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .bf16⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .bf16⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .bf16⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .bf16⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .bf16⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S_, .f32⟩
  | .hbm, ⟨99, _⟩ => ⟨S64x128, .f32⟩
  | .hbm, ⟨100, _⟩ => ⟨S100000x1, .i32⟩
  | .hbm, ⟨101, _⟩ => ⟨S64x128, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S64, .f32⟩
  | .hbm, ⟨106, _⟩ => ⟨S100000x1, .i32⟩
  | .hbm, ⟨107, _⟩ => ⟨S64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | .hbm, ⟨112, _⟩ => ⟨S64x128, .f32⟩
  | .hbm, ⟨113, _⟩ => ⟨S64x128, .f32⟩
  | .hbm, ⟨114, _⟩ => ⟨S64x3, .f32⟩
  | .hbm, ⟨115, _⟩ => ⟨S1x3, .f32⟩
  | .hbm, ⟨116, _⟩ => ⟨S64x3, .f32⟩
  | .hbm, ⟨117, _⟩ => ⟨S64x3, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .bf16⟩
  | .local _ .vmem, ⟨5, _⟩ => ⟨S10000x128, .bf16⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .bf16⟩
  | .local _ .vmem, ⟨11, _⟩ => ⟨S10000x128, .bf16⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_11 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x3_S64x3_1_0_0_1_n_n_wf : DotDims.WF S64x128 S128x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .bf16 = 32 ∨ (Rect.block (s := S100000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

abbrev win0_0 : Pipeline.Window sig grid0 :=
  Pipeline.Window.ofSpec (Memref.whole main_v31) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x3 : Shape := ⟨2, ![64, 3]⟩
abbrev S1x3 : Shape := ⟨2, ![1, 3]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x3, .f32⟩
  | 10 => ⟨S3, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x128, .f32⟩
  | 107 => ⟨S1700000x1, .f32⟩
  | 108 => ⟨S1700000x128, .f32⟩
  | 109 => ⟨S1700000x128, .f32⟩
  | 110 => ⟨S_, .f32⟩
  | 111 => ⟨S100000x128, .f32⟩
  | 112 => ⟨S1700000x1, .i32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .f32⟩
  | 121 => ⟨S64x128, .f32⟩
  | 122 => ⟨S100000x1, .i32⟩
  | 123 => ⟨S64x128, .f32⟩
  | 124 => ⟨S_, .f32⟩
  | 125 => ⟨S100000, .f32⟩
  | 126 => ⟨S_, .f32⟩
  | 127 => ⟨S64, .f32⟩
  | _ => ⟨S100000x128, .f32⟩

abbrev hbmTy0_1 (i : Nat) : BufTy := match i % 128 with
  | 0 => ⟨S100000x1, .i32⟩
  | 1 => ⟨S64, .f32⟩
  | 2 => ⟨S_, .f32⟩
  | 3 => ⟨S64, .f32⟩
  | 4 => ⟨S64, .f32⟩
  | 5 => ⟨S64x1, .f32⟩
  | 6 => ⟨S64x128, .f32⟩
  | 7 => ⟨S64x128, .f32⟩
  | 8 => ⟨S64x3, .f32⟩
  | 9 => ⟨S1x3, .f32⟩
  | 10 => ⟨S64x3, .f32⟩
  | 11 => ⟨S64x3, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_cst_17 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S3_S1x3_1 : S3.BroadcastsInDim S1x3 (![1] : Fin 1 → Fin S1x3.rank)
  bcast_S1x3_S64x3_0_1 : S1x3.BroadcastsInDim S64x3 (![0, 1] : Fin 2 → Fin S64x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x3_S64x3_1_0_0_1_n_n_wf : DotDims.WF S64x128 S128x3 S64x3 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x3_S64x3_1_0_0_1_n_n : DotDims S64x128 S128x3 S64x3 where
  lhsContracting := [1]
  rhsContracting := [0]
  lhsNonContracting := [0]
  rhsNonContracting := [1]
  lhsBatch := []
  rhsBatch := []
  wf := dot_S64x128_S128x3_S64x3_1_0_0_1_n_n_wf

class Facts : Prop extends Facts₀ where

variable [Facts]
-- ==== Proof.KerRun.lean ====
/-
  The idealized kernel's run with its result named.

  Every weakly fair execution of @main terminates, nothing faulting, with the argument arrays as launched and the
  result buffer holding what the last stretch of host operations computes from the third region's exit contents:
  the fold of @main's segments (host stretches and regions) from the launch memory, read at the result's buffer.
  The run is the launch of the segments; at its end every unscoped buffer is read against the fold's last valuation.
-/
import proofs.«143724_j64639257805082_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: it terminates, the result buffer ends at the last valuation of the fold read at it, and every
    argument array ends as launched. -/
theorem run_result : θ_run defs (onTc (τ := τ) (main (F := F))) ⟨m, fun _ => 0, ρ⟩ (fun r => ∀ c : Dev nD,
      r.2.mem ((c.tc : Thread nD τ).loc main_v87) = W9 m ρ c (Proc.devRef .tc main_v87)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v87 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.RunValue

end
-- ==== Proof.KerDefs.lean ====
/-
  The idealized kernel's host-side stages as functions of the argument arrays.

  The edge lists (source and destination rows, with one self loop per node appended), the in-degree and its inverse
  square root `dis`, the node-level scaling of a feature array by `dis`, the edge aggregation
  `agg hs (i, k) = dis i · ∑_{e lands at i} hs (src e, k)`, the bias laid out as one row, and the pooling tail
  (per-graph mean of the last layer's rows, then a dense read-out): each spelled with the program's own operations,
  so that what a stretch of host operations leaves in a buffer is one of these terms.
-/
import proofs.«143724_j64639257805082_2_alg».proof.KernelIdeal
import proofs.«143724_j64639257805082_2_alg».proof.Proof.Gen.KernelIdeal

noncomputable section

namespace Cert.KernelIdeal.KerValue

open Cert.KernelIdeal Cert.KernelIdeal.Facts₀ Cert.KernelIdeal.Facts Idealize.ShloMosaic

variable {F : FTy → Type} [FloatOps F]

/-- Source rows of the edges, the self loops appended. -/
def srcRaw (a1 : IVec S2x1600000 32) : IVec S1700000 32 :=
  concatenate S1700000 0 [⟨S1600000, shapeCast _ (extractStridedSlice S1x1600000 ![0, 0] a1 slices_S2x1600000_S1x1600000_0_0) shapeCasts_S1x1600000_S1600000⟩, ⟨S100000, iotaInDim S100000 32 0⟩] concatenates_S1600000_S100000_S1700000_d0

/-- Destination rows of the edges, the self loops appended. -/
def dstRaw (a1 : IVec S2x1600000 32) : IVec S1700000 32 :=
  concatenate S1700000 0 [⟨S1600000, shapeCast _ (extractStridedSlice S1x1600000 ![1, 0] a1 slices_S2x1600000_S1x1600000_1_0) shapeCasts_S1x1600000_S1600000⟩, ⟨S100000, iotaInDim S100000 32 0⟩] concatenates_S1600000_S100000_S1700000_d0

/-- A negative row number counted from the end. -/
def normIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- A list of row numbers as a one-column array. -/
def col (v : IVec S1700000 32) : IVec S1700000x1 32 := broadcastInDim S1700000x1 ![0] bcast_S1700000_S1700000x1_0 v

/-- The in-degree: one per edge landing at the node. -/
def deg (a1 : IVec S2x1600000 32) : FVec F S100000 .f32 :=
  Host.scatterAdd scatter_S100000_S1700000x1_S1700000_n_0_0_1 (broadcastInDim S100000 ![] bcast_S_S100000 (constant S_ .f32 0x00000000#32))
    (col (dstRaw a1)) (broadcastInDim S1700000 ![] bcast_S_S1700000 (constant S_ .f32 0x3F800000#32))

/-- The inverse square root of a positive degree, zero otherwise. -/
def dis (a1 : IVec S2x1600000 32) : FVec F S100000 .f32 :=
  select (cmpf (F := F) .ogt (deg a1) (broadcastInDim S100000 ![] bcast_S_S100000 (constant S_ .f32 0x00000000#32)))
    (Host.rsqrt (deg a1)) (broadcastInDim S100000 ![] bcast_S_S100000 (id (constant S_ .f32 0x00000000#32)))

/-- `dis` as one column. -/
def discol (a1 : IVec S2x1600000 32) : FVec F S100000x1 .f32 := broadcastInDim S100000x1 ![0] bcast_S100000_S100000x1_0 (dis a1)

/-- `dis` repeated along every row. -/
def dismat (a1 : IVec S2x1600000 32) : FVec F S100000x128 .f32 :=
  broadcastInDim S100000x128 ![0, 1] bcast_S100000x1_S100000x128_0_1 (discol a1)

/-- The input features scaled row by row. -/
def scaleIn (a1 : IVec S2x1600000 32) (x : FVec F S100000x128 .f32) : FVec F S100000x128 .bf16 :=
  truncf .bf16 (mulf x (dismat a1)) bitsLt_bf16_f32

/-- A hidden layer's features scaled row by row. -/
def scaleMid (a1 : IVec S2x1600000 32) (h : FVec F S100000x128 .bf16) : FVec F S100000x128 .bf16 :=
  truncf .bf16 (mulf (extf .f32 h bitsLt_bf16_f32) (dismat a1)) bitsLt_bf16_f32

/-- The scaled rows gathered along the edges, summed at each edge's destination, and scaled again. -/
def agg (a1 : IVec S2x1600000 32) (hs : FVec F S100000x128 .bf16) : FVec F S100000x128 .f32 :=
  mulf (Host.scatterAdd scatter_S100000x128_S1700000x1_S1700000x128_1_0_0_1
      (broadcastInDim S100000x128 ![] bcast_S_S100000x128 (constant S_ .f32 0x00000000#32)) (col (dstRaw a1))
      (extf .f32 (Host.gather gather_S100000x128_S1700000x1_S1700000x128_1_0_n_n_0_1_1128 hs (col (normIdx (srcRaw a1)))) bitsLt_bf16_f32))
    (dismat a1)

/-- A bias vector as one row. -/
def biasRow (b : FVec F S128 .f32) : FVec F S1x128 .f32 := shapeCast _ b shapeCasts_S128_S1x128

/-- The pooling tail: rows summed per graph, divided by the graph's node count (at least one), then the read-out. -/
def tail (a2 : IVec S100000 32) (h3 : FVec F S100000x128 .f32) (Wc : FVec F S128x3 .f32) (bc : FVec F S3 .f32) : FVec F S64x3 .f32 :=
  addf (Host.dotGeneral dot_S64x128_S128x3_S64x3_1_0_0_1_n_n none
      (Host.divf
        (Host.scatterAdd scatter_S64x128_S100000x1_S100000x128_1_0_0_1 (broadcastInDim S64x128 ![] bcast_S_S64x128 (constant S_ .f32 0x00000000#32))
          (broadcastInDim S100000x1 ![0] bcast_S100000_S100000x1_0 a2) h3)
        (broadcastInDim S64x128 ![0, 1] bcast_S64x1_S64x128_0_1 (broadcastInDim S64x1 ![0] bcast_S64_S64x1_0
          (maximumf (Host.scatterAdd scatter_S64_S100000x1_S100000_n_0_0_1 (broadcastInDim S64 ![] bcast_S_S64 (constant S_ .f32 0x00000000#32))
              (broadcastInDim S100000x1 ![0] bcast_S100000_S100000x1_0 a2) (broadcastInDim S100000 ![] bcast_S_S100000 (constant S_ .f32 0x3F800000#32)))
            (broadcastInDim S64 ![] bcast_S_S64 (constant S_ .f32 0x3F800000#32))))))
      Wc)
    (broadcastInDim S64x3 ![0, 1] bcast_S1x3_S64x3_0_1 (broadcastInDim S1x3 ![1] bcast_S3_S1x3_1 bc))

end Cert.KernelIdeal.KerValue

end
-- ==== Proof.KerFold.lean ====
/-
  What each stretch of host operations of the idealized kernel leaves in the buffers the regions read.

  @main is a fold: three stretches of host operations, the first region, a stretch, the second region, a stretch, the
  third region, the last stretch.  At each region's entry the left operand holds the edge aggregation of the scaled
  features (of the input for the first layer, of the previous region's output for the others), the weight buffer holds
  that layer's weight, the bias buffer the bias as one row; the edge lists and `dis` are computed once, in the first
  stretches, and no later operation or region writes them.  The result is the pooling tail of the third region's output.
-/
import proofs.«143724_j64639257805082_2_alg».proof.Proof.Gen.KernelIdeal.Frame
import proofs.«143724_j64639257805082_2_alg».proof.Proof.KerDefs

set_option maxRecDepth 16384

noncomputable section

namespace Cert.KernelIdeal.KerValue

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg) (c : Dev nD)

/-- The edge index array as launched. -/
abbrev edges : IVec S2x1600000 32 := m ((c.tc : Thread nD τ).loc main_arg1)

/-- A buffer of the first three stretches read back to the launch memory. -/
macro "read_stretch0" : tactic =>
  `(tactic| (unfold W3 W2 W1; simp only [hostOps0_2, hostOps0_1, hostOps0]; after_results))
/-- A buffer after the stretch between the first and second regions, read back to the first region's exit. -/
macro "read_stretch1" : tactic => `(tactic| (unfold W5; simp only [hostOps1]; after_results))
/-- A buffer after the stretch between the second and third regions, read back to the second region's exit. -/
macro "read_stretch2" : tactic => `(tactic| (unfold W7; simp only [hostOps2]; after_results))
/-- A buffer after the last stretch, read back to the third region's exit. -/
macro "read_stretch3" : tactic => `(tactic| (unfold W9; simp only [hostOps3]; after_results))

/-! ## The first region's entry -/
set_option maxHeartbeats 4000000 in
theorem W3_src : W3 m ρ c (Proc.devRef .tc main_v5) = srcRaw (edges m c) := by
  read_stretch0
  rfl

set_option maxHeartbeats 4000000 in
theorem W3_dst : W3 m ρ c (Proc.devRef .tc main_v6) = dstRaw (edges m c) := by
  read_stretch0
  rfl

set_option maxHeartbeats 4000000 in
theorem W3_discol : W3 m ρ c (Proc.devRef .tc main_v15) = discol (edges m c) := by
  read_stretch0
  rfl

set_option maxHeartbeats 4000000 in
theorem W3_agg : W3 m ρ c (Proc.devRef .tc main_v31) = agg (edges m c) (scaleIn (edges m c) (m ((c.tc : Thread nD τ).loc main_arg0))) := by
  read_stretch0
  rfl

set_option maxHeartbeats 4000000 in
theorem W3_bias : W3 m ρ c (Proc.devRef .tc main_v32) = biasRow (m ((c.tc : Thread nD τ).loc main_arg4)) := by
  read_stretch0
  rfl

set_option maxHeartbeats 4000000 in
theorem W3_arg2 : W3 m ρ c (Proc.devRef .tc main_arg2) = m ((c.tc : Thread nD τ).loc main_arg2) := by
  read_stretch0

set_option maxHeartbeats 4000000 in
theorem W3_arg3 : W3 m ρ c (Proc.devRef .tc main_arg3) = m ((c.tc : Thread nD τ).loc main_arg3) := by
  read_stretch0

set_option maxHeartbeats 4000000 in
theorem W3_arg5 : W3 m ρ c (Proc.devRef .tc main_arg5) = m ((c.tc : Thread nD τ).loc main_arg5) := by
  read_stretch0

set_option maxHeartbeats 4000000 in
theorem W3_arg6 : W3 m ρ c (Proc.devRef .tc main_arg6) = m ((c.tc : Thread nD τ).loc main_arg6) := by
  read_stretch0

set_option maxHeartbeats 4000000 in
theorem W3_arg7 : W3 m ρ c (Proc.devRef .tc main_arg7) = m ((c.tc : Thread nD τ).loc main_arg7) := by
  read_stretch0

set_option maxHeartbeats 4000000 in
theorem W3_arg8 : W3 m ρ c (Proc.devRef .tc main_arg8) = m ((c.tc : Thread nD τ).loc main_arg8) := by
  read_stretch0

set_option maxHeartbeats 4000000 in
theorem W3_arg9 : W3 m ρ c (Proc.devRef .tc main_arg9) = m ((c.tc : Thread nD τ).loc main_arg9) := by
  read_stretch0

set_option maxHeartbeats 4000000 in
theorem W3_arg10 : W3 m ρ c (Proc.devRef .tc main_arg10) = m ((c.tc : Thread nD τ).loc main_arg10) := by
  read_stretch0

/-! ## Between the first and second regions -/

set_option maxHeartbeats 4000000 in
theorem W5_src : W5 m ρ c (Proc.devRef .tc main_v5) = srcRaw (edges m c) := by
  read_stretch1
  exact (W4_of_ne m ρ c main_v5 (by decide)).trans (W3_src m ρ c)

set_option maxHeartbeats 4000000 in
theorem W5_dst : W5 m ρ c (Proc.devRef .tc main_v6) = dstRaw (edges m c) := by
  read_stretch1
  exact (W4_of_ne m ρ c main_v6 (by decide)).trans (W3_dst m ρ c)

set_option maxHeartbeats 4000000 in
theorem W5_discol : W5 m ρ c (Proc.devRef .tc main_v15) = discol (edges m c) := by
  read_stretch1
  exact (W4_of_ne m ρ c main_v15 (by decide)).trans (W3_discol m ρ c)

set_option maxHeartbeats 4000000 in
theorem W5_agg : W5 m ρ c (Proc.devRef .tc main_v50) = agg (edges m c) (scaleMid (edges m c) (W4 m ρ c (Proc.devRef .tc main_v33))) := by
  read_stretch1
  rw [W4_of_ne m ρ c main_v15 (by decide), W4_of_ne m ρ c main_v5 (by decide), W4_of_ne m ρ c main_v6 (by decide),
    W3_discol, W3_src, W3_dst]
  rfl

set_option maxHeartbeats 4000000 in
theorem W5_bias : W5 m ρ c (Proc.devRef .tc main_v51) = biasRow (m ((c.tc : Thread nD τ).loc main_arg6)) := by
  read_stretch1
  rw [W4_of_ne m ρ c main_arg6 (by decide), W3_arg6]
  rfl

set_option maxHeartbeats 4000000 in
theorem W5_arg2 : W5 m ρ c (Proc.devRef .tc main_arg2) = m ((c.tc : Thread nD τ).loc main_arg2) := by
  read_stretch1
  exact (W4_of_ne m ρ c main_arg2 (by decide)).trans (W3_arg2 m ρ c)

set_option maxHeartbeats 4000000 in
theorem W5_arg5 : W5 m ρ c (Proc.devRef .tc main_arg5) = m ((c.tc : Thread nD τ).loc main_arg5) := by
  read_stretch1
  exact (W4_of_ne m ρ c main_arg5 (by decide)).trans (W3_arg5 m ρ c)

set_option maxHeartbeats 4000000 in
theorem W5_arg7 : W5 m ρ c (Proc.devRef .tc main_arg7) = m ((c.tc : Thread nD τ).loc main_arg7) := by
  read_stretch1
  exact (W4_of_ne m ρ c main_arg7 (by decide)).trans (W3_arg7 m ρ c)

set_option maxHeartbeats 4000000 in
theorem W5_arg8 : W5 m ρ c (Proc.devRef .tc main_arg8) = m ((c.tc : Thread nD τ).loc main_arg8) := by
  read_stretch1
  exact (W4_of_ne m ρ c main_arg8 (by decide)).trans (W3_arg8 m ρ c)

set_option maxHeartbeats 4000000 in
theorem W5_arg9 : W5 m ρ c (Proc.devRef .tc main_arg9) = m ((c.tc : Thread nD τ).loc main_arg9) := by
  read_stretch1
  exact (W4_of_ne m ρ c main_arg9 (by decide)).trans (W3_arg9 m ρ c)

set_option maxHeartbeats 4000000 in
theorem W5_arg10 : W5 m ρ c (Proc.devRef .tc main_arg10) = m ((c.tc : Thread nD τ).loc main_arg10) := by
  read_stretch1
  exact (W4_of_ne m ρ c main_arg10 (by decide)).trans (W3_arg10 m ρ c)

/-! ## Between the second and third regions -/

set_option maxHeartbeats 4000000 in
theorem W7_agg : W7 m ρ c (Proc.devRef .tc main_v69) = agg (edges m c) (scaleMid (edges m c) (W6 m ρ c (Proc.devRef .tc main_v52))) := by
  read_stretch2
  rw [W6_of_ne m ρ c main_v15 (by decide), W6_of_ne m ρ c main_v5 (by decide), W6_of_ne m ρ c main_v6 (by decide),
    W5_discol, W5_src, W5_dst]
  rfl

set_option maxHeartbeats 4000000 in
theorem W7_bias : W7 m ρ c (Proc.devRef .tc main_v70) = biasRow (m ((c.tc : Thread nD τ).loc main_arg8)) := by
  read_stretch2
  rw [W6_of_ne m ρ c main_arg8 (by decide), W5_arg8]
  rfl

set_option maxHeartbeats 4000000 in
theorem W7_arg2 : W7 m ρ c (Proc.devRef .tc main_arg2) = m ((c.tc : Thread nD τ).loc main_arg2) := by
  read_stretch2
  exact (W6_of_ne m ρ c main_arg2 (by decide)).trans (W5_arg2 m ρ c)

set_option maxHeartbeats 4000000 in
theorem W7_arg7 : W7 m ρ c (Proc.devRef .tc main_arg7) = m ((c.tc : Thread nD τ).loc main_arg7) := by
  read_stretch2
  exact (W6_of_ne m ρ c main_arg7 (by decide)).trans (W5_arg7 m ρ c)

set_option maxHeartbeats 4000000 in
theorem W7_arg9 : W7 m ρ c (Proc.devRef .tc main_arg9) = m ((c.tc : Thread nD τ).loc main_arg9) := by
  read_stretch2
  exact (W6_of_ne m ρ c main_arg9 (by decide)).trans (W5_arg9 m ρ c)

set_option maxHeartbeats 4000000 in
theorem W7_arg10 : W7 m ρ c (Proc.devRef .tc main_arg10) = m ((c.tc : Thread nD τ).loc main_arg10) := by
  read_stretch2
  exact (W6_of_ne m ρ c main_arg10 (by decide)).trans (W5_arg10 m ρ c)

/-! ## After the third region -/

set_option maxHeartbeats 4000000 in
theorem W9_out : W9 m ρ c (Proc.devRef .tc main_v87) = tail (m ((c.tc : Thread nD τ).loc main_arg2)) (W8 m ρ c (Proc.devRef .tc main_v71)) (m ((c.tc : Thread nD τ).loc main_arg9)) (m ((c.tc : Thread nD τ).loc main_arg10)) := by
  read_stretch3
  rw [W8_of_ne m ρ c main_arg2 (by decide), W8_of_ne m ρ c main_arg9 (by decide), W8_of_ne m ρ c main_arg10 (by decide),
    W7_arg2, W7_arg9, W7_arg10]
  rfl

end Cert.KernelIdeal.KerValue

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.KerRegion.lean ====
/-
  The value of one tiled dense layer: ten row blocks of a table, each passed through the rectified affine layer
  `max (A W + b, 0)`, make up the same layer applied to the whole table.

  A region's grid has ten points; point `t` reads rows `10000 t … 10000 t + 9999` of the table `A : [100000, 128]`, the
  whole weight `W : [128, 128]` and the whole one-row bias `b : [1, 128]`, and writes rows `10000 t … 10000 t + 9999` of the
  result.  What it computes on its block is the layer of the block: a matrix product into a zero accumulator, the bias
  row added to every row, the maximum with zero; the changes of float format on the way are the identity on the extended
  reals.  Row `r` of the layer depends on row `r` of the table only, so row `y` of the layer of block `t` is row
  `10000 t + y` of the layer of the table; every row `r` lies in the block of point `r / 10000`, so the blocks cover the
  result, which therefore ends holding the layer of the table.  The three regions are three such layers.
-/
import proofs.«143724_j64639257805082_2_alg».proof.Proof.Gen.KernelIdeal.Frame
import proofs.«143724_j64639257805082_2_alg».proof.Proof.LibDense
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

theorem offsets_zero : (![0, 0] : Fin 2 → Nat) = fun _ => 0 := funext fun a => by fin_cases a <;> rfl

/-! ## What a point computes on its blocks -/

/-- The body's arithmetic on a block of rows, the whole weight and the bias row is the layer of the block. -/
theorem pay0_eq (x0 : Vec Ideal S10000x128 .f32) (x1 : Vec Ideal S128x128 .f32) (x2 : Vec Ideal S1x128 .f32) :
    k0_pay1 (F := Ideal) x0 x1 x2 = Cert.Dense.act x0 x1 x2 := by
  unfold k0_pay1
  simp only [shapeCast_self]
  refine (Cert.Dense.vecReluBias _ x2 broadcasts_S1x128_S10000x128).trans ?_
  rw [Cert.Dense.act_eq]
  refine congrArg (fun X => Cert.Dense.reluBias X x2) ?_
  exact Cert.Dense.matmul_zero_eq_mm dot_S10000x128_S128x128_S10000x128_1_0_0_1_n_n rfl rfl rfl rfl rfl rfl none x0 x1

/-- Row `p'` of the layer of a block is row `p` of the layer of the table when the block's row `p'` is the table's row
    `p`, the weights and the bias rows are the same, and the columns agree. -/
theorem act_at {M M' : ℕ} (A : Cert.Dense.Mat M 128) (W : Cert.Dense.Mat 128 128) (B : Cert.Dense.Mat 1 128)
    (a : Cert.Dense.Mat M' 128) (w : Cert.Dense.Mat 128 128) (b : Cert.Dense.Mat 1 128)
    (j : (⟨2, ![M', 128]⟩ : Shape).Idx) (i : (⟨2, ![M, 128]⟩ : Shape).Idx)
    (ha : ∀ k : Fin 128, a (ix2 (Cert.Dense.c0 j) k) = A (ix2 (Cert.Dense.c0 i) k)) (hw : w = W) (hb : b = B)
    (hcol : (j 1).val = (i 1).val) : Cert.Dense.act a w b j = Cert.Dense.act A W B i := by
  subst hw hb
  obtain ⟨p', q', rfl⟩ : ∃ (p' : Fin M') (q' : Fin 128), j = ix2 p' q' := ⟨j 0, j 1, eq_ix2 j⟩
  obtain ⟨p, q, rfl⟩ : ∃ (p : Fin M) (q : Fin 128), i = ix2 p q := ⟨i 0, i 1, eq_ix2 i⟩
  obtain rfl : q' = q := Fin.ext hcol
  exact Cert.Dense.act_rows A a w b p p' ha q'

/-! ## Region 0 -/

section Region0
variable (V : (c : Dev nD) → (b : Ref sig .tc) → Buf (Elt Ideal) ((c : Thread nD τ).loc b))

/-- The layer of the arrays the region finds: the table, the weight and the bias row. -/
abbrev layer0 (c : Dev nD) : Cert.Dense.Mat 100000 128 :=
  Cert.Dense.act (V c (Pipeline.arrRef spec0 0)) (V c (Pipeline.arrRef spec0 1)) (V c (Pipeline.arrRef spec0 2))

/-- The index maps over the grid: the table's and the result's blocks are at block row `t`, the weight's and the bias
    row's at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table's block at point `t`, at local row `y`, is the table at row `10000 t + y`. -/
theorem table0_read (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c (Pipeline.arrRef spec0 0) : S100000x128.Idx → EReal) i := by
  obtain ⟨e00, e01, -⟩ := idx_facts0 t
  unfold iblk0
  rw [View.read_apply]
  refine congrArg (V c (Pipeline.arrRef spec0 0)) (funext fun a => Fin.ext ?_)
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The weight's block at every point is the whole weight. -/
theorem weight0_read (c : Dev nD) (t : Fin cfg0.N) :
    (iblk0 V c 1 t : Vec Ideal S128x128 .f32) = (V c (Pipeline.arrRef spec0 1) : S128x128.Idx → EReal) := by
  obtain ⟨-, -, e10, e11, -⟩ := idx_facts0 t
  funext y
  unfold iblk0
  rw [View.read_apply]
  refine congrArg (V c (Pipeline.arrRef spec0 1)) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block at every point is the whole bias row. -/
theorem bias0_read (c : Dev nD) (t : Fin cfg0.N) :
    (iblk0 V c 2 t : Vec Ideal S1x128 .f32) = (V c (Pipeline.arrRef spec0 2) : S1x128.Idx → EReal) := by
  obtain ⟨-, -, -, -, e20, e21, -⟩ := idx_facts0 t
  funext y
  unfold iblk0
  rw [View.read_apply]
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point `t` writes back is block `t` of the layer of the table. -/
theorem flushed0_eq (c : Dev nD) (t : Fin cfg0.N) :
    (dat0 (F := Ideal) V c).flushed 3 t = ((cfg0.win 3).blk t).view.read (Elt Ideal) (layer0 V c) := by
  show (cfg0.win 3).cut (grid0.coords t) ((dat0 (F := Ideal) V c).after 3 t) = _
  rw [after0_3]
  unfold out0_3
  rw [View.canon_unit_zero offsets_zero]
  simp only [View.ld_unit_zero (S := S10000x128) offsets_zero, View.ld_unit_zero (S := S128x128) offsets_zero,
    View.ld_unit_zero (S := S1x128) offsets_zero]
  rw [pay0_eq]
  obtain ⟨-, -, -, -, -, -, e30, e31⟩ := idx_facts0 t
  funext j
  show Cert.Dense.act (iblk0 V c 0 t) (iblk0 V c 1 t) (iblk0 V c 2 t) j
    = Cert.Dense.act (V c (Pipeline.arrRef spec0 0)) (V c (Pipeline.arrRef spec0 1)) (V c (Pipeline.arrRef spec0 2))
        (((cfg0.win 3).blk t).view.emb j)
  refine act_at _ _ _ _ _ _ j _ (fun k => ?_) (weight0_read V c t) (bias0_read V c t) ?_
  · refine table0_read V c t _ _ ?_ rfl
    show win0_3.index t (0 : Fin 2) * 10000 + 1 * (j 0).val = 10000 * t.val + (j 0).val
    omega
  · show (j 1).val = win0_3.index t (1 : Fin 2) * 128 + 1 * (j 1).val
    omega

/-- An index of the result is in point `t`'s block exactly when each coordinate is in the block's range on its axis. -/
theorem mem_blk0 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v33).slice (win0_3.rect t)).set ↔ _
  rw [View.set_slice_whole, Rect.mem_set_unit]
  exact Iff.rfl

/-- Every row of the result lies in the block of the point its row number divided by the block height names. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_3 _, ?_⟩
  obtain ⟨-, -, -, -, -, -, e30, e31⟩ := idx_facts0 ⟨(i 0).val / 10000, by rw [hN]; omega⟩
  rw [mem_blk0]
  intro a
  match a with
  | ⟨0, _⟩ =>
    show win0_3.index _ (0 : Fin 2) * 10000 ≤ (i 0).val ∧ (i 0).val < win0_3.index _ (0 : Fin 2) * 10000 + 10000
    rw [e30]
    show (i 0).val / 10000 * 10000 ≤ (i 0).val ∧ (i 0).val < (i 0).val / 10000 * 10000 + 10000
    omega
  | ⟨1, _⟩ =>
    show win0_3.index _ (1 : Fin 2) * 128 ≤ (i 1).val ∧ (i 1).val < win0_3.index _ (1 : Fin 2) * 128 + 128
    rw [e31]
    omega

/-- After region 0 its result array holds the layer of the table, the weight and the bias row the region found. -/
theorem region0_array (c : Dev nD) : (dat0 (F := Ideal) V c).arrAt 3 cfg0.N = layer0 V c :=
  (dat0 (F := Ideal) V c).arrAt_eq_of_cover 3 (layer0 V c) (fun t _ => flushed0_eq V c t) cover0

end Region0

/-- The body's arithmetic on a block of rows, the whole weight and the bias row is the layer of the block. -/
theorem pay1_eq (x0 : Vec Ideal S10000x128 .f32) (x1 : Vec Ideal S128x128 .f32) (x2 : Vec Ideal S1x128 .f32) :
    k1_pay1 (F := Ideal) x0 x1 x2 = Cert.Dense.act x0 x1 x2 := by
  unfold k1_pay1
  simp only [shapeCast_self]
  refine (Cert.Dense.vecReluBias _ x2 broadcasts_S1x128_S10000x128).trans ?_
  rw [Cert.Dense.act_eq]
  refine congrArg (fun X => Cert.Dense.reluBias X x2) ?_
  exact Cert.Dense.matmul_zero_eq_mm dot_S10000x128_S128x128_S10000x128_1_0_0_1_n_n rfl rfl rfl rfl rfl rfl none x0 x1
/-! ## Region 1 -/

section Region1
variable (V : (c : Dev nD) → (b : Ref sig .tc) → Buf (Elt Ideal) ((c : Thread nD τ).loc b))

/-- The layer of the arrays the region finds: the table, the weight and the bias row. -/
abbrev layer1 (c : Dev nD) : Cert.Dense.Mat 100000 128 :=
  Cert.Dense.act (V c (Pipeline.arrRef spec1 0)) (V c (Pipeline.arrRef spec1 1)) (V c (Pipeline.arrRef spec1 2))

/-- The index maps over the grid: the table's and the result's blocks are at block row `t`, the weight's and the bias
    row's at the origin. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The table's block at point `t`, at local row `y`, is the table at row `10000 t + y`. -/
theorem table1_read (c : Dev nD) (t : Fin cfg1.N) (y : S10000x128.Idx) (i : S100000x128.Idx)
    (h0 : (i 0).val = 10000 * t.val + (y 0).val) (h1 : (i 1).val = (y 1).val) :
    (iblk1 V c 0 t : Vec Ideal S10000x128 .f32) y = (V c (Pipeline.arrRef spec1 0) : S100000x128.Idx → EReal) i := by
  obtain ⟨e00, e01, -⟩ := idx_facts1 t
  unfold iblk1
  rw [View.read_apply]
  refine congrArg (V c (Pipeline.arrRef spec1 0)) (funext fun a => Fin.ext ?_)
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- The weight's block at every point is the whole weight. -/
theorem weight1_read (c : Dev nD) (t : Fin cfg1.N) :
    (iblk1 V c 1 t : Vec Ideal S128x128 .f32) = (V c (Pipeline.arrRef spec1 1) : S128x128.Idx → EReal) := by
  obtain ⟨-, -, e10, e11, -⟩ := idx_facts1 t
  funext y
  unfold iblk1
  rw [View.read_apply]
  refine congrArg (V c (Pipeline.arrRef spec1 1)) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The bias row's block at every point is the whole bias row. -/
theorem bias1_read (c : Dev nD) (t : Fin cfg1.N) :
    (iblk1 V c 2 t : Vec Ideal S1x128 .f32) = (V c (Pipeline.arrRef spec1 2) : S1x128.Idx → EReal) := by
  obtain ⟨-, -, -, -, e20, e21, -⟩ := idx_facts1 t
  funext y
  unfold iblk1
  rw [View.read_apply]
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- What point `t` writes back is block `t` of the layer of the table. -/
theorem flushed1_eq (c : Dev nD) (t : Fin cfg1.N) :
    (dat1 (F := Ideal) V c).flushed 3 t = ((cfg1.win 3).blk t).view.read (Elt Ideal) (layer1 V c) := by
  show (cfg1.win 3).cut (grid1.coords t) ((dat1 (F := Ideal) V c).after 3 t) = _
  rw [after1_3]
  unfold out1_3
  rw [View.canon_unit_zero offsets_zero]
  simp only [View.ld_unit_zero (S := S10000x128) offsets_zero, View.ld_unit_zero (S := S128x128) offsets_zero,
    View.ld_unit_zero (S := S1x128) offsets_zero]
  rw [pay1_eq]
  obtain ⟨-, -, -, -, -, -, e30, e31⟩ := idx_facts1 t
  funext j
  show Cert.Dense.act (iblk1 V c 0 t) (iblk1 V c 1 t) (iblk1 V c 2 t) j
    = Cert.Dense.act (V c (Pipeline.arrRef spec1 0)) (V c (Pipeline.arrRef spec1 1)) (V c (Pipeline.arrRef spec1 2))
        (((cfg1.win 3).blk t).view.emb j)
  refine act_at _ _ _ _ _ _ j _ (fun k => ?_) (weight1_read V c t) (bias1_read V c t) ?_
  · refine table1_read V c t _ _ ?_ rfl
    show win1_3.index t (0 : Fin 2) * 10000 + 1 * (j 0).val = 10000 * t.val + (j 0).val
    omega
  · show (j 1).val = win1_3.index t (1 : Fin 2) * 128 + 1 * (j 1).val
    omega

/-- An index of the result is in point `t`'s block exactly when each coordinate is in the block's range on its axis. -/
theorem mem_blk1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v52).slice (win1_3.rect t)).set ↔ _
  rw [View.set_slice_whole, Rect.mem_set_unit]
  exact Iff.rfl

/-- Every row of the result lies in the block of the point its row number divided by the block height names. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_3 _, ?_⟩
  obtain ⟨-, -, -, -, -, -, e30, e31⟩ := idx_facts1 ⟨(i 0).val / 10000, by rw [hN]; omega⟩
  rw [mem_blk1]
  intro a
  match a with
  | ⟨0, _⟩ =>
    show win1_3.index _ (0 : Fin 2) * 10000 ≤ (i 0).val ∧ (i 0).val < win1_3.index _ (0 : Fin 2) * 10000 + 10000
    rw [e30]
    show (i 0).val / 10000 * 10000 ≤ (i 0).val ∧ (i 0).val < (i 0).val / 10000 * 10000 + 10000
    omega
  | ⟨1, _⟩ =>
    show win1_3.index _ (1 : Fin 2) * 128 ≤ (i 1).val ∧ (i 1).val < win1_3.index _ (1 : Fin 2) * 128 + 128
    rw [e31]
    omega

/-- After region 1 its result array holds the layer of the table, the weight and the bias row the region found. -/
theorem region1_array (c : Dev nD) : (dat1 (F := Ideal) V c).arrAt 3 cfg1.N = layer1 V c :=
  (dat1 (F := Ideal) V c).arrAt_eq_of_cover 3 (layer1 V c) (fun t _ => flushed1_eq V c t) cover1

end Region1

/-- The body's arithmetic on a block of rows, the whole weight and the bias row is the layer of the block. -/
theorem pay2_eq (x0 : Vec Ideal S10000x128 .f32) (x1 : Vec Ideal S128x128 .f32) (x2 : Vec Ideal S1x128 .f32) :
    k2_pay1 (F := Ideal) x0 x1 x2 = Cert.Dense.act x0 x1 x2 := by
  unfold k2_pay1
  simp only [shapeCast_self]
  refine (Cert.Dense.vecReluBias _ x2 broadcasts_S1x128_S10000x128).trans ?_
  rw [Cert.Dense.act_eq]
  refine congrArg (fun X => Cert.Dense.reluBias X x2) ?_
  exact Cert.Dense.matmul_zero_eq_mm dot_S10000x128_S128x128_S10000x128_1_0_0_1_n_n rfl rfl rfl rfl rfl rfl none x0 x1
/-! ## Region 2 -/

section Region2
variable (V : (c : Dev nD) → (b : Ref sig .tc) → Buf (Elt Ideal) ((c : Thread nD τ).loc b))

/-- The layer of the arrays the region finds: the table, the weight and the bias row. -/
abbrev layer2 (c : Dev nD) : Cert.Dense.Mat 100000 128 :=
  Cert.Dense.act (V c (Pipeline.arrRef spec2 0)) (V c (Pipeline.arrRef spec2 1)) (V c (Pipeline.arrRef spec2 2))

/-- The index maps over the grid: the table's and the result's blocks are at block row `t`, the weight's and the bias
    row's at the origin. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The table's block at point `t`, at local row `y`, is the table at row `10000 t + y`. -/
theorem table2_read (c : Dev nD) (t : Fin cfg2.N) (y : S10000x128.Idx) (i : S100000x128.Idx)
    (h0 : (i 0).val = 10000 * t.val + (y 0).val) (h1 : (i 1).val = (y 1).val) :
    (iblk2 V c 0 t : Vec Ideal S10000x128 .f32) y = (V c (Pipeline.arrRef spec2 0) : S100000x128.Idx → EReal) i := by
  obtain ⟨e00, e01, -⟩ := idx_facts2 t
  unfold iblk2
  rw [View.read_apply]
  refine congrArg (V c (Pipeline.arrRef spec2 0)) (funext fun a => Fin.ext ?_)
  match a with
  | ⟨0, _⟩ => show win2_0.index t (0 : Fin 2) * 10000 + 1 * (y 0).val = (i 0).val; omega
  | ⟨1, _⟩ => show win2_0.index t (1 : Fin 2) * 128 + 1 * (y 1).val = (i 1).val; omega

/-- The weight's block at every point is the whole weight. -/
theorem weight2_read (c : Dev nD) (t : Fin cfg2.N) :
    (iblk2 V c 1 t : Vec Ideal S128x128 .f32) = (V c (Pipeline.arrRef spec2 1) : S128x128.Idx → EReal) := by
  obtain ⟨-, -, e10, e11, -⟩ := idx_facts2 t
  funext y
  unfold iblk2
  rw [View.read_apply]
  refine congrArg (V c (Pipeline.arrRef spec2 1)) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The bias row's block at every point is the whole bias row. -/
theorem bias2_read (c : Dev nD) (t : Fin cfg2.N) :
    (iblk2 V c 2 t : Vec Ideal S1x128 .f32) = (V c (Pipeline.arrRef spec2 2) : S1x128.Idx → EReal) := by
  obtain ⟨-, -, -, -, e20, e21, -⟩ := idx_facts2 t
  funext y
  unfold iblk2
  rw [View.read_apply]
  refine congrArg (V c (Pipeline.arrRef spec2 2)) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- What point `t` writes back is block `t` of the layer of the table. -/
theorem flushed2_eq (c : Dev nD) (t : Fin cfg2.N) :
    (dat2 (F := Ideal) V c).flushed 3 t = ((cfg2.win 3).blk t).view.read (Elt Ideal) (layer2 V c) := by
  show (cfg2.win 3).cut (grid2.coords t) ((dat2 (F := Ideal) V c).after 3 t) = _
  rw [after2_3]
  unfold out2_3
  rw [View.canon_unit_zero offsets_zero]
  simp only [View.ld_unit_zero (S := S10000x128) offsets_zero, View.ld_unit_zero (S := S128x128) offsets_zero,
    View.ld_unit_zero (S := S1x128) offsets_zero]
  rw [pay2_eq]
  obtain ⟨-, -, -, -, -, -, e30, e31⟩ := idx_facts2 t
  funext j
  show Cert.Dense.act (iblk2 V c 0 t) (iblk2 V c 1 t) (iblk2 V c 2 t) j
    = Cert.Dense.act (V c (Pipeline.arrRef spec2 0)) (V c (Pipeline.arrRef spec2 1)) (V c (Pipeline.arrRef spec2 2))
        (((cfg2.win 3).blk t).view.emb j)
  refine act_at _ _ _ _ _ _ j _ (fun k => ?_) (weight2_read V c t) (bias2_read V c t) ?_
  · refine table2_read V c t _ _ ?_ rfl
    show win2_3.index t (0 : Fin 2) * 10000 + 1 * (j 0).val = 10000 * t.val + (j 0).val
    omega
  · show (j 1).val = win2_3.index t (1 : Fin 2) * 128 + 1 * (j 1).val
    omega

/-- An index of the result is in point `t`'s block exactly when each coordinate is in the block's range on its axis. -/
theorem mem_blk2 (t : Fin cfg2.N) (i : S100000x128.Idx) :
    i ∈ ((cfg2.win 3).blk t).view.set ↔ ∀ a : Fin 2, win2_3.index t a * S10000x128.size a ≤ (i a).val
      ∧ (i a).val < win2_3.index t a * S10000x128.size a + S10000x128.size a := by
  show i ∈ ((View.whole main_v71).slice (win2_3.rect t)).set ↔ _
  rw [View.set_slice_whole, Rect.mem_set_unit]
  exact Iff.rfl

/-- Every row of the result lies in the block of the point its row number divided by the block height names. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 10 := N_2
  refine ⟨⟨(i 0).val / 10000, by rw [hN]; omega⟩, flush2_3 _, ?_⟩
  obtain ⟨-, -, -, -, -, -, e30, e31⟩ := idx_facts2 ⟨(i 0).val / 10000, by rw [hN]; omega⟩
  rw [mem_blk2]
  intro a
  match a with
  | ⟨0, _⟩ =>
    show win2_3.index _ (0 : Fin 2) * 10000 ≤ (i 0).val ∧ (i 0).val < win2_3.index _ (0 : Fin 2) * 10000 + 10000
    rw [e30]
    show (i 0).val / 10000 * 10000 ≤ (i 0).val ∧ (i 0).val < (i 0).val / 10000 * 10000 + 10000
    omega
  | ⟨1, _⟩ =>
    show win2_3.index _ (1 : Fin 2) * 128 ≤ (i 1).val ∧ (i 1).val < win2_3.index _ (1 : Fin 2) * 128 + 128
    rw [e31]
    omega

/-- After region 2 its result array holds the layer of the table, the weight and the bias row the region found. -/
theorem region2_array (c : Dev nD) : (dat2 (F := Ideal) V c).arrAt 3 cfg2.N = layer2 V c :=
  (dat2 (F := Ideal) V c).arrAt_eq_of_cover 3 (layer2 V c) (fun t _ => flushed2_eq V c t) cover2

end Region2

end Cert.KernelIdeal.RegionValue

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«143724_j64639257805082_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibRowGather.lean ====
/-
  A gather of whole rows, read at an index, at any extents.

  `x[idx]` of a table `x : [N, C]` at a column of row numbers `idx : [E, 1]` is the array `[E, C]` whose row `e` is row
  `idx e` of the table: the start index is read as a signed integer and clamped into `[0, N − 1]`, the slice is one whole
  row, so entry `(e, q)` is `x (clamp (idx e), q)`.  The clamped row number depends on `idx` and `e` only — not on the
  table, nor on its width — which is what lets a map applied to every row of the table be taken before or after the gather.
-/
import Idealize.ShloMosaic.PureOps.Ideal.Laws
import Idealize.ShloMosaic.Lib.ValueIdx
import Idealize.ShloMosaic.Lib.Pipeline.Value

noncomputable section

namespace Cert.RowGather

open Idealize.ShloMosaic Idealize.ShloMosaic.ValueIdx

variable {α : Type}

/-- The row a gather reads for entry `e`: the start index read signed, clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- A gather of whole rows (the result's second axis the offset axis, the table's first axis collapsed and named by the
    start index, one index per result row) reads, at `(e, q)`, the table at row `rowOf idx e` and column `q`. -/
theorem rowGather_apply {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (rowOf hN idx e) q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![E, 1]⟩ ⟨2, ![E, C]⟩) = D
  unfold Host.gather
  refine congrArg x (funext fun a => Fin.ext ?_)
  show D.start (ix2 e q) idx a + D.batchCoord (ix2 e q) a + D.offCoord (ix2 e q) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _ (fun h => ((GatherDims.mem_sKept _ _).mp h).1 (by rw [hcd]; exact List.mem_singleton.mpr rfl)),
      Nat.add_zero]
    unfold GatherDims.start
    have hmem : (⟨0, by decide⟩ : Fin 2) ∈ D.startIndexMap := by rw [hsm]; exact List.mem_singleton.mpr rfl
    rw [dif_pos hmem]
    have hsi : D.siIdx (ix2 e q) ⟨List.idxOf (⟨0, by decide⟩ : Fin 2) D.startIndexMap, List.idxOf_lt_length_iff.2 hmem⟩
        = ix2 e (0 : Fin 1) := by
      subst hD
      funext b; refine Fin.ext ?_
      match b with
      | ⟨0, _⟩ => rfl
      | ⟨1, _⟩ => rfl
    rw [hsi]
    subst hD
    rfl
  | ⟨1, _⟩ =>
    have hst : D.start (ix2 e q) idx ⟨1, by show 1 < 2; omega⟩ = 0 := by
      unfold GatherDims.start
      rw [dif_neg (by rw [hsm]; exact fun h => Nat.one_ne_zero (congrArg Fin.val (List.mem_singleton.mp h)))]
    rw [hst, Nat.zero_add]
    subst hD
    rfl

end Cert.RowGather

end
-- ==== Proof.LibScatterRows.lean ====
/-
  An accumulating scatter of whole rows, at any extents.

  Scattering the rows of `upd : [E, C]` into a table `x : [N, C]` at a column of row numbers `idx : [E, 1]`, adding
  where rows collide, gives at entry `(i, q)` the table's entry plus the sum of `upd (e, q)` over the rows `e` whose
  row number, read as a signed integer, is exactly `i`: the start index is not clamped, so a row whose number is
  negative or at least `N` lands nowhere and contributes to no entry.  The set of rows landing at `i` depends on
  `idx` and `i` only.  The same holds for a vector `x : [N]` and updates `upd : [E]`.  A gather of single elements
  of a vector reads the clamped row number, and the clamp is the identity on a row number already in range, which
  is what relates a gather to the scatter at the same indices.
-/
import Idealize.ShloMosaic.PureOps.Ideal.Laws
import Idealize.ShloMosaic.Lib.ValueIdx
import Idealize.ShloMosaic.Lib.Pipeline.Value
import proofs.«143724_j64639257805082_2_alg».proof.Proof.LibRowGather

noncomputable section

namespace Cert.ScatterRows

open Idealize.ShloMosaic Idealize.ShloMosaic.ValueIdx

/-- The update rows that land at row `i`: those whose row number, read signed, is `i`. -/
def landsAt {N E w : ℕ} (idx : IVec ⟨2, ![E, 1]⟩ w) (i : Fin N) : Finset (Fin E) :=
  Finset.univ.filter (fun e => (idx (ix2 e (0 : Fin 1))).toInt = (i.val : Int))

/-- The window of update `(e, q')` of a row scatter: on the table's first axis it starts at the row number and has
    coordinate `0`; on the second axis it starts at `0` and has coordinate `q'`. -/
theorem start_window {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q' : Fin C) :
    d.start (ix2 e q') idx ⟨0, Nat.zero_lt_two⟩ = (idx (ix2 e (0 : Fin 1))).toInt ∧
    d.start (ix2 e q') idx ⟨1, Nat.one_lt_two⟩ = 0 ∧
    d.window (ix2 e q') ⟨0, Nat.zero_lt_two⟩ = 0 ∧
    d.window (ix2 e q') ⟨1, Nat.one_lt_two⟩ = q'.val := by
  obtain ⟨uw, iw, sd, iv, wf⟩ := d
  dsimp only at h1 h2 h3 h4
  subst h1 h2 h3 h4
  generalize hD : (⟨[1], [0], [0], 1, wf⟩ : ScatterDims ⟨2, ![N, C]⟩ ⟨2, ![E, 1]⟩ ⟨2, ![E, C]⟩) = D
  have hsd : D.scatterDimsToOperandDims = [0] := by subst hD; rfl
  refine ⟨?_, ?_, ?_, ?_⟩
  · unfold ScatterDims.start
    have hmem : (⟨0, by decide⟩ : Fin 2) ∈ D.scatterDimsToOperandDims := by rw [hsd]; exact List.mem_singleton.mpr rfl
    rw [dif_pos hmem]
    have hsi : D.siIdx (ix2 e q') ⟨List.idxOf (⟨0, by decide⟩ : Fin 2) D.scatterDimsToOperandDims,
        List.idxOf_lt_length_iff.2 hmem⟩ = ix2 e (0 : Fin 1) := by
      subst hD
      funext b; refine Fin.ext ?_
      match b with
      | ⟨0, _⟩ => rfl
      | ⟨1, _⟩ => rfl
    rw [hsi]
  · unfold ScatterDims.start
    rw [dif_neg (by rw [hsd]; exact fun h => Nat.one_ne_zero (congrArg Fin.val (List.mem_singleton.mp h)))]
  · subst hD; rfl
  · subst hD; rfl

/-- Update `(e, q')` of a row scatter lands at entry `(i, q)` exactly when its row number, read signed, is `i` and
    its column is `q`. -/
theorem resultIdx?_eq_some_iff {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q' : Fin C) (i : Fin N) (q : Fin C) :
    d.resultIdx? (ix2 e q') idx = some (ix2 i q) ↔
      (idx (ix2 e (0 : Fin 1))).toInt = (i.val : Int) ∧ q' = q := by
  obtain ⟨hs0, hs1, hw0, hw1⟩ := start_window d h1 h2 h3 h4 idx e q'
  unfold ScatterDims.resultIdx?
  constructor
  · intro h
    split_ifs at h with hc
    have hf := Option.some.inj h
    have e0 := congrArg Fin.val (congrFun hf ⟨0, Nat.zero_lt_two⟩)
    have e1 := congrArg Fin.val (congrFun hf ⟨1, Nat.one_lt_two⟩)
    have c0 := (hc ⟨0, Nat.zero_lt_two⟩).1
    simp only [hs0, hw0] at e0 c0
    simp only [hs1, hw1] at e1
    refine ⟨?_, Fin.ext ?_⟩
    · change ((idx (ix2 e (0 : Fin 1))).toInt + ((0 : ℕ) : ℤ)).toNat = i.val at e0
      omega
    · change ((0 : ℤ) + ((q'.val : ℕ) : ℤ)).toNat = q.val at e1
      omega
  · rintro ⟨hi, rfl⟩
    have hc : ∀ a : Fin 2, 0 ≤ d.start (ix2 e q') idx a + d.window (ix2 e q') a ∧
        d.start (ix2 e q') idx a + d.window (ix2 e q') a < (⟨2, ![N, C]⟩ : Shape).size a := by
      intro a
      match a with
      | ⟨0, _⟩ =>
        rw [hs0, hw0, hi]
        change (0 : ℤ) ≤ (i.val : ℤ) + ((0 : ℕ) : ℤ) ∧ (i.val : ℤ) + ((0 : ℕ) : ℤ) < (N : ℤ)
        have := i.isLt
        omega
      | ⟨1, _⟩ =>
        rw [hs1, hw1]
        change (0 : ℤ) ≤ 0 + (q'.val : ℤ) ∧ 0 + (q'.val : ℤ) < (C : ℤ)
        have := q'.isLt
        omega
    rw [dif_pos hc]
    refine congrArg some (funext fun a => Fin.ext ?_)
    match a with
    | ⟨0, _⟩ =>
      change (d.start (ix2 e q') idx ⟨0, Nat.zero_lt_two⟩ + d.window (ix2 e q') ⟨0, Nat.zero_lt_two⟩).toNat = i.val
      rw [hs0, hw0, hi]; omega
    | ⟨1, _⟩ =>
      change (d.start (ix2 e q') idx ⟨1, Nat.one_lt_two⟩ + d.window (ix2 e q') ⟨1, Nat.one_lt_two⟩).toNat = q'.val
      rw [hs1, hw1]; omega

/-- An accumulating scatter of whole rows: entry `(i, q)` of the result is the table's entry plus the sum, over the
    update rows landing at `i`, of their entry in column `q`. -/
theorem scatterRows_apply {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (i : Fin N) (q : Fin C) :
    Host.scatterAdd (F := Ideal) d x idx upd (ix2 i q) = x (ix2 i q) + ∑ e ∈ landsAt idx i, upd (ix2 e q) := by
  show x (ix2 i q) + ∑ j ∈ Finset.univ.filter (fun j => d.resultIdx? j idx = some (ix2 i q)), upd j = _
  congr 1
  rw [Finset.sum_filter, sum_idx2]
  simp only [resultIdx?_eq_some_iff d h1 h2 h3 h4]
  unfold landsAt
  rw [Finset.sum_filter]
  refine Finset.sum_congr rfl fun a _ => ?_
  by_cases ha : (idx (ix2 a (0 : Fin 1))).toInt = (i.val : Int)
  · simp only [ha, true_and, if_true]
    rw [Finset.sum_ite_eq' Finset.univ q (fun b => upd (ix2 a b))]
    simp
  · simp only [ha, false_and, if_false]
    exact Finset.sum_const_zero

/-- The clamp into `[0, N − 1]` is the identity on a row number already in range: a row that lands at `i` is read
    back from row `i` by a gather at the same indices. -/
theorem rowOf_of_toInt {N E w : ℕ} (hN : 0 < N) (idx : IVec ⟨2, ![E, 1]⟩ w) (e : Fin E) (i : Fin N)
    (h : (idx (ix2 e (0 : Fin 1))).toInt = (i.val : Int)) : Cert.RowGather.rowOf hN idx e = i := by
  refine Fin.ext ?_
  show min (idx (ix2 e (0 : Fin 1))).toInt.toNat (N - 1) = i.val
  rw [h]
  have := i.isLt
  omega

/-- A row lands at `i` exactly when it is a member of `landsAt idx i`. -/
theorem mem_landsAt {N E w : ℕ} (idx : IVec ⟨2, ![E, 1]⟩ w) (i : Fin N) (e : Fin E) :
    e ∈ landsAt idx i ↔ (idx (ix2 e (0 : Fin 1))).toInt = (i.val : Int) := by
  unfold landsAt
  rw [Finset.mem_filter]
  exact ⟨fun h => h.2, fun h => ⟨Finset.mem_univ _, h⟩⟩

/-! ## The rank-1 forms -/

/-- A rank-1 index set is its one coordinate range … -/
def idxEquiv1 {n : ℕ} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

/-- The window of update `e` of an element scatter into a vector: it starts at the row number and has coordinate
    `0`. -/
theorem start_window1 {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) :
    d.start (ix1 e) idx ⟨0, Nat.one_pos⟩ = (idx (ix2 e (0 : Fin 1))).toInt ∧
    d.window (ix1 e) ⟨0, Nat.one_pos⟩ = 0 := by
  obtain ⟨uw, iw, sd, iv, wf⟩ := d
  dsimp only at h1 h2 h3 h4
  subst h1 h2 h3 h4
  generalize hD : (⟨[], [0], [0], 1, wf⟩ : ScatterDims ⟨1, ![N]⟩ ⟨2, ![E, 1]⟩ ⟨1, ![E]⟩) = D
  have hsd : D.scatterDimsToOperandDims = [0] := by subst hD; rfl
  refine ⟨?_, ?_⟩
  · unfold ScatterDims.start
    have hmem : (⟨0, Nat.one_pos⟩ : Fin 1) ∈ D.scatterDimsToOperandDims := by rw [hsd]; exact List.mem_singleton.mpr rfl
    rw [dif_pos hmem]
    have hsi : D.siIdx (ix1 e) ⟨List.idxOf (⟨0, Nat.one_pos⟩ : Fin 1) D.scatterDimsToOperandDims,
        List.idxOf_lt_length_iff.2 hmem⟩ = ix2 e (0 : Fin 1) := by
      subst hD
      funext b; refine Fin.ext ?_
      match b with
      | ⟨0, _⟩ => rfl
      | ⟨1, _⟩ => rfl
    rw [hsi]
  · subst hD; rfl

/-- Update `e` of an element scatter into a vector lands at entry `i` exactly when its row number, read signed,
    is `i`. -/
theorem resultIdx?_eq_some_iff1 {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  obtain ⟨hs0, hw0⟩ := start_window1 d h1 h2 h3 h4 idx e
  unfold ScatterDims.resultIdx?
  constructor
  · intro h
    split_ifs at h with hc
    have hf := Option.some.inj h
    have e0 := congrArg Fin.val (congrFun hf ⟨0, Nat.one_pos⟩)
    have c0 := (hc ⟨0, Nat.one_pos⟩).1
    simp only [hs0, hw0] at e0 c0
    change ((idx (ix2 e (0 : Fin 1))).toInt + ((0 : ℕ) : ℤ)).toNat = i.val at e0
    omega
  · intro hi
    have hc : ∀ a : Fin 1, 0 ≤ d.start (ix1 e) idx a + d.window (ix1 e) a ∧
        d.start (ix1 e) idx a + d.window (ix1 e) a < (⟨1, ![N]⟩ : Shape).size a := by
      intro a
      match a with
      | ⟨0, _⟩ =>
        rw [hs0, hw0, hi]
        change (0 : ℤ) ≤ (i.val : ℤ) + ((0 : ℕ) : ℤ) ∧ (i.val : ℤ) + ((0 : ℕ) : ℤ) < (N : ℤ)
        have := i.isLt
        omega
    rw [dif_pos hc]
    refine congrArg some (funext fun a => Fin.ext ?_)
    match a with
    | ⟨0, _⟩ =>
      change (d.start (ix1 e) idx ⟨0, Nat.one_pos⟩ + d.window (ix1 e) ⟨0, Nat.one_pos⟩).toNat = i.val
      rw [hs0, hw0, hi]; omega

/-- An accumulating scatter of single elements into a vector: entry `i` of the result is the vector's entry plus the
    sum of the updates landing at `i`. -/
theorem scatterElems_apply {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w) (upd : FVec Ideal ⟨1, ![E]⟩ .f32) (i : Fin N) :
    Host.scatterAdd (F := Ideal) d x idx upd (ix1 i) = x (ix1 i) + ∑ e ∈ landsAt idx i, upd (ix1 e) := by
  show x (ix1 i) + ∑ j ∈ Finset.univ.filter (fun j => d.resultIdx? j idx = some (ix1 i)), upd j = _
  congr 1
  rw [Finset.sum_filter, sum_idx1]
  simp only [resultIdx?_eq_some_iff1 d h1 h2 h3 h4]
  unfold landsAt
  rw [Finset.sum_filter]

/-- A gather of single elements of a vector (the one operand axis collapsed and named by the start index, one index
    per result entry) reads, at `e`, the vector at the clamped row number of `e`. -/
theorem elemGather_apply {α : Type} {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (Cert.RowGather.rowOf hN idx e)) := by
  obtain ⟨od, cd, ob, sb, sm, iv, ss, wf⟩ := d
  dsimp only at h1 h2 h3 h4 h5 h6 h7
  subst h1 h2 h3 h4 h5 h6 h7
  generalize hD : (⟨[], [0], [], [], [0], 1, ![1], wf⟩ : GatherDims ⟨1, ![N]⟩ ⟨2, ![E, 1]⟩ ⟨1, ![E]⟩) = D
  unfold Host.gather
  refine congrArg x (funext fun a => Fin.ext ?_)
  show D.start (ix1 e) idx a + D.batchCoord (ix1 e) a + D.offCoord (ix1 e) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _
      (fun h => ((GatherDims.mem_sKept _ _).mp h).1 (by rw [hcd]; exact List.mem_singleton.mpr rfl)), Nat.add_zero]
    unfold GatherDims.start
    have hmem : (⟨0, Nat.one_pos⟩ : Fin 1) ∈ D.startIndexMap := by rw [hsm]; exact List.mem_singleton.mpr rfl
    rw [dif_pos hmem]
    have hsi : D.siIdx (ix1 e) ⟨List.idxOf (⟨0, Nat.one_pos⟩ : Fin 1) D.startIndexMap,
        List.idxOf_lt_length_iff.2 hmem⟩ = ix2 e (0 : Fin 1) := by
      subst hD
      funext b; refine Fin.ext ?_
      match b with
      | ⟨0, _⟩ => rfl
      | ⟨1, _⟩ => rfl
    rw [hsi]
    subst hD
    rfl

end Cert.ScatterRows

end
-- ==== Proof.LibGcnAlgebra.lean ====
/-
  The algebra of one graph-convolution layer on the extended reals.

  A layer takes node features `h`, a weight vector `w` (one output column), a bias `β`, and per-node scales `δ`
  (the inverse square roots of the degrees). For a node `i` whose incoming edges are the finite set `D`, with `sr e`
  the source of the edge `e`, the layer's value is

      max (∑ e ∈ D, (∑ k, h (sr e) k · w k) · (δ (sr e) · δ i) + β, 0).

  It can be computed in two orders. The first multiplies the features by the weights, gathers the product at each edge's
  source, scales each edge by `δ (source) · δ (destination)` and sums the edges landing at `i`. The second scales the
  rows of `h` by `δ`, gathers, sums over the edges, scales the sum by `δ i` and only then multiplies by the weights.
  On the real numbers the two agree by distributivity and commutativity of finite sums. On the extended reals
  multiplication does not distribute over addition in general (`⊤ + ⊥` absorbs), so the statement is made for data
  that are coerced reals: every coercion is pushed outwards through products, finite sums, the bias addition and the
  maximum with zero, and the remaining identity is one on `ℝ`.

  The last lemma says that the guarded inverse square root `if x > 0 then 1 / √x else 0`, read on the extended reals
  (where `1 / √⊤ = 0`), is a coerced real at every extended real `x`: the guard removes `⊥`, the negative reals and
  zero, which are the only arguments at which the inverse square root is infinite.
-/
import Mathlib.Data.EReal.Basic
import Mathlib.Data.EReal.Operations
import Idealize.ShloMosaic.PureOps.Ideal.Laws

noncomputable section

open scoped BigOperators

namespace Cert.GcnAlgebra

open Idealize.ShloMosaic

variable {E N K : Type} [Fintype K] [DecidableEq E]

/-- The coercion of the reals into the extended reals commutes with finite sums. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The coercion commutes with the maximum. -/
theorem coe_max (a b : ℝ) : max ((a : ℝ) : EReal) ((b : ℝ) : EReal) = ((max a b : ℝ) : EReal) := by
  rcases le_total a b with hab | hab
  · rw [max_eq_right hab, max_eq_right (EReal.coe_le_coe_iff.mpr hab)]
  · rw [max_eq_left hab, max_eq_left (EReal.coe_le_coe_iff.mpr hab)]

/-- One entry of a graph-convolution layer on the reals: the edges in `D` land at the node whose scale is `di`. -/
def layerReal (D : Finset E) (sr : E → N) (δ : N → ℝ) (h : N → K → ℝ) (w : K → ℝ) (β di : ℝ) : ℝ :=
  max (∑ e ∈ D, (∑ k, h (sr e) k * w k) * (δ (sr e) * di) + β) 0

/-- Multiply by the weights, gather at the sources, scale each edge by both end scales, sum the edges landing at `i`. -/
theorem ref_entry (D : Finset E) (sr dr : E → N) (δ : N → ℝ) (h : N → K → ℝ) (w : K → ℝ) (β : ℝ) (i : N)
    (hdr : ∀ e ∈ D, dr e = i) :
    max ((∑ e ∈ D, (∑ k, ((h (sr e) k : ℝ) : EReal) * ((w k : ℝ) : EReal))
        * (((δ (sr e) : ℝ) : EReal) * ((δ (dr e) : ℝ) : EReal))) + ((β : ℝ) : EReal)) 0
      = ((layerReal D sr δ h w β (δ i) : ℝ) : EReal) := by
  have hsum : (∑ e ∈ D, (∑ k, ((h (sr e) k : ℝ) : EReal) * ((w k : ℝ) : EReal))
        * (((δ (sr e) : ℝ) : EReal) * ((δ (dr e) : ℝ) : EReal)))
      = ((∑ e ∈ D, (∑ k, h (sr e) k * w k) * (δ (sr e) * δ i) : ℝ) : EReal) := by
    rw [← coe_sum]
    refine Finset.sum_congr rfl (fun e he => ?_)
    rw [hdr e he, EReal.coe_mul, EReal.coe_mul, ← coe_sum]
    refine congrArg (· * _) (Finset.sum_congr rfl (fun k _ => ?_))
    rw [EReal.coe_mul]
  rw [hsum, ← EReal.coe_add, ← EReal.coe_zero, coe_max]
  rfl

/-- Scale the rows, gather at the sources, sum the edges landing at `i`, scale by `δ i`, then multiply by the weights. -/
theorem ker_entry (D : Finset E) (sr : E → N) (δ : N → ℝ) (h : N → K → ℝ) (w : K → ℝ) (β : ℝ) (i : N) :
    max ((∑ k, ((∑ e ∈ D, ((h (sr e) k : ℝ) : EReal) * ((δ (sr e) : ℝ) : EReal)) * ((δ i : ℝ) : EReal))
        * ((w k : ℝ) : EReal)) + ((β : ℝ) : EReal)) 0
      = ((layerReal D sr δ h w β (δ i) : ℝ) : EReal) := by
  have hsum : (∑ k, ((∑ e ∈ D, ((h (sr e) k : ℝ) : EReal) * ((δ (sr e) : ℝ) : EReal)) * ((δ i : ℝ) : EReal))
        * ((w k : ℝ) : EReal))
      = ((∑ k, ((∑ e ∈ D, h (sr e) k * δ (sr e)) * δ i) * w k : ℝ) : EReal) := by
    rw [← coe_sum]
    refine Finset.sum_congr rfl (fun k _ => ?_)
    rw [EReal.coe_mul, EReal.coe_mul, ← coe_sum]
    refine congrArg (fun t => t * _ * _) (Finset.sum_congr rfl (fun e _ => ?_))
    rw [EReal.coe_mul]
  have hreal : (∑ k, ((∑ e ∈ D, h (sr e) k * δ (sr e)) * δ i) * w k)
      = ∑ e ∈ D, (∑ k, h (sr e) k * w k) * (δ (sr e) * δ i) := by
    simp only [Finset.sum_mul]
    rw [Finset.sum_comm]
    refine Finset.sum_congr rfl (fun e _ => Finset.sum_congr rfl (fun k _ => ?_))
    ring
  rw [hsum, hreal, ← EReal.coe_add, ← EReal.coe_zero, coe_max]
  rfl

/-- The guarded inverse square root, `1 / √x` where `x > 0` and `0` elsewhere, is a coerced real at every extended real:
    at `⊤` the inverse square root is `0`, at a positive real it is the real `(√x)⁻¹`, and everywhere else the guard
    returns `0`. -/
theorem dis_real (x : EReal) :
    ∃ δ : ℝ, Scalar.select (FloatOps.cmpf (F := Ideal) .ogt x (FloatOps.ofBits (F := Ideal) .f32 0x00000000#32))
      (FloatOps.hostUnary (F := Ideal) .rsqrt x) (FloatOps.ofBits (F := Ideal) .f32 0x00000000#32)
        = ((δ : ℝ) : EReal) := by
  rw [Ideal.cmpf_def, Ideal.hostUnary_rsqrt_def, Ideal.ofBits_def, Ideal.ofBits_zero_f32]
  unfold Scalar.select Ideal.cmp
  induction x using EReal.rec with
  | bot => exact ⟨0, by simp⟩
  | top => exact ⟨0, by simp⟩
  | coe r =>
    by_cases hr : 0 < r
    · refine ⟨(Real.sqrt r)⁻¹, ?_⟩
      have h0 : (0 : EReal) < (r : EReal) := by exact_mod_cast hr
      simp [h0, not_lt.mpr hr.le, hr.ne']
    · refine ⟨0, ?_⟩
      have h0 : ¬ (0 : EReal) < (r : EReal) := by exact_mod_cast hr
      simp [h0]

end Cert.GcnAlgebra
-- ==== Proof.KerLayer.lean ====
/-
  One graph-convolution layer of the idealized kernel, read at an entry, on coerced reals.

  The layer scales the rows of `H` by `dis`, gathers them along the edges, sums at each edge's destination, scales the
  sum by `dis` of the destination, multiplies by the weight, adds the bias row and rectifies.  At entry `(i, j)`:
  `max (∑ k, ((∑ e lands at i, H (src e, k) · dis (src e)) · dis i) · W (k, j) + b j, 0)`.  When every datum is a coerced real
  this is the coerced real layer (distributivity on the reals).
-/
import proofs.«143724_j64639257805082_2_alg».proof.Proof.KerDefs
import proofs.«143724_j64639257805082_2_alg».proof.Proof.LibDense
import proofs.«143724_j64639257805082_2_alg».proof.Proof.LibHostLayout
import proofs.«143724_j64639257805082_2_alg».proof.Proof.LibRowGather
import proofs.«143724_j64639257805082_2_alg».proof.Proof.LibScatterRows
import proofs.«143724_j64639257805082_2_alg».proof.Proof.LibGcnAlgebra

noncomputable section

open scoped BigOperators

namespace Cert.KernelIdeal.KerValue

open Cert.KernelIdeal Cert.KernelIdeal.Facts₀ Cert.KernelIdeal.Facts Idealize.ShloMosaic Idealize.ShloMosaic.ValueIdx
open Cert.Dense Cert.ScatterRows Cert.RowGather

theorem nodes_pos : 0 < 100000 := by decide

/-- A layer of the kernel at the ideal instance: the rectified affine map of the edge aggregation of the scaled rows. -/
def klayer (a1 : IVec S2x1600000 32) (H : FVec Ideal S100000x128 .f32) (W : FVec Ideal S128x128 .f32) (b : FVec Ideal S128 .f32) :
    Mat 100000 128 :=
  act (agg (F := Ideal) a1 (scaleIn a1 H)) W (biasRow b)

/-- A hidden layer's scaling is the input's: a change of float format is the identity on the extended reals. -/
theorem scaleMid_eq (a1 : IVec S2x1600000 32) (h : FVec Ideal S100000x128 .bf16) : scaleMid (F := Ideal) a1 h = scaleIn a1 h := rfl

/-- A product of float arrays read at an index. -/
theorem mulf_apply {s : Shape} (x y : FVec Ideal s .f32) (j : s.Idx) : mulf x y j = x j * y j := rfl

/-! ### The stages over abstract operands: any scale vector, any index columns -/

/-- A vector repeated along every row, read at an entry. -/
theorem dismat_core (dv : FVec Ideal S100000 .f32) (i : Fin 100000) (k : Fin 128) :
    broadcastInDim S100000x128 ![0, 1] bcast_S100000x1_S100000x128_0_1 (broadcastInDim S100000x1 ![0] bcast_S100000_S100000x1_0 dv) (ix2 i k)
      = dv (ix1 i) := by
  rw [Cert.HostLayout.bcast_col_mat, Cert.HostLayout.bcast_vec_col]

/-- Rows scaled by a vector, read at an entry (the change of float format is the identity). -/
theorem scale_core (dv : FVec Ideal S100000 .f32) (H : FVec Ideal S100000x128 .f32) (i : Fin 100000) (k : Fin 128) :
    truncf .bf16 (mulf H (broadcastInDim S100000x128 ![0, 1] bcast_S100000x1_S100000x128_0_1
        (broadcastInDim S100000x1 ![0] bcast_S100000_S100000x1_0 dv))) bitsLt_bf16_f32 (ix2 i k)
      = H (ix2 i k) * dv (ix1 i) := by
  show mulf H (broadcastInDim S100000x128 ![0, 1] bcast_S100000x1_S100000x128_0_1
        (broadcastInDim S100000x1 ![0] bcast_S100000_S100000x1_0 dv)) (ix2 i k) = _
  rw [mulf_apply, dismat_core]

/-- The edge aggregation over abstract index columns and an abstract scale vector, read at an entry. -/
theorem agg_core (iD iS : IVec S1700000x1 32) (dv : FVec Ideal S100000 .f32) (hs : FVec Ideal S100000x128 .bf16)
    (i : Fin 100000) (k : Fin 128) :
    mulf (Host.scatterAdd scatter_S100000x128_S1700000x1_S1700000x128_1_0_0_1
        (broadcastInDim S100000x128 ![] bcast_S_S100000x128 (constant S_ .f32 0x00000000#32)) iD
        (extf .f32 (Host.gather gather_S100000x128_S1700000x1_S1700000x128_1_0_n_n_0_1_1128 hs iS) bitsLt_bf16_f32))
      (broadcastInDim S100000x128 ![0, 1] bcast_S100000x1_S100000x128_0_1 (broadcastInDim S100000x1 ![0] bcast_S100000_S100000x1_0 dv))
      (ix2 i k)
      = (∑ e ∈ landsAt iD i, hs (ix2 (rowOf nodes_pos iS e) k)) * dv (ix1 i) := by
  have h0 : constant (F := Ideal) S_ .f32 0x00000000#32 ix0 = 0 := Ideal.ofBits_zero_f32
  rw [mulf_apply, dismat_core, scatterRows_apply scatter_S100000x128_S1700000x1_S1700000x128_1_0_0_1 rfl rfl rfl rfl,
    Cert.HostLayout.bcast_scalar_mat, h0, zero_add]
  refine congrArg (· * dv (ix1 i)) (Finset.sum_congr rfl fun e _ => ?_)
  show Host.gather gather_S100000x128_S1700000x1_S1700000x128_1_0_n_n_0_1_1128 hs iS (ix2 e k) = _
  exact rowGather_apply nodes_pos gather_S100000x128_S1700000x1_S1700000x128_1_0_n_n_0_1_1128 rfl rfl rfl rfl rfl rfl rfl hs iS e k

/-! ### The program's stages are instances -/

theorem scaleIn_apply (a1 : IVec S2x1600000 32) (H : FVec Ideal S100000x128 .f32) (i : Fin 100000) (k : Fin 128) :
    (scaleIn (F := Ideal) a1 H (ix2 i k) : EReal) = H (ix2 i k) * dis (F := Ideal) a1 (ix1 i) := by
  unfold scaleIn dismat discol
  exact scale_core _ H i k

theorem agg_apply (a1 : IVec S2x1600000 32) (hs : FVec Ideal S100000x128 .bf16) (i : Fin 100000) (k : Fin 128) :
    agg (F := Ideal) a1 hs (ix2 i k)
      = (∑ e ∈ landsAt (col (dstRaw a1)) i, (hs (ix2 (rowOf nodes_pos (col (normIdx (srcRaw a1))) e) k) : EReal)) * dis (F := Ideal) a1 (ix1 i) := by
  unfold agg dismat discol
  exact agg_core _ _ _ hs i k

theorem biasRow_apply (b : FVec Ideal S128 .f32) (j : Fin 128) : biasRow (F := Ideal) b (ix2 (0 : Fin 1) j) = b (ix1 j) := by
  unfold biasRow
  rw [shapeCast_row]
  rfl

set_option maxRecDepth 8192 in
/-- The layer on coerced reals is the coerced real layer. -/
theorem klayer_real (a1 : IVec S2x1600000 32) (δ : Fin 100000 → ℝ) (hδ : ∀ i, dis (F := Ideal) a1 (ix1 i) = ((δ i : ℝ) : EReal))
    (H : FVec Ideal S100000x128 .f32) (W : FVec Ideal S128x128 .f32) (b : FVec Ideal S128 .f32)
    (h : Fin 100000 → Fin 128 → ℝ) (w : Fin 128 → Fin 128 → ℝ) (β : Fin 128 → ℝ)
    (hH : ∀ i k, H (ix2 i k) = ((h i k : ℝ) : EReal)) (hW : ∀ k j, W (ix2 k j) = ((w k j : ℝ) : EReal))
    (hb : ∀ j, b (ix1 j) = ((β j : ℝ) : EReal)) (i : Fin 100000) (j : Fin 128) :
    klayer a1 H W b (ix2 i j)
      = ((Cert.GcnAlgebra.layerReal (landsAt (col (dstRaw a1)) i) (rowOf nodes_pos (col (normIdx (srcRaw a1)))) δ h
          (fun k => w k j) (β j) (δ i) : ℝ) : EReal) := by
  unfold klayer
  rw [act_apply, biasRow_apply, hb]
  simp only [agg_apply, scaleIn_apply, hδ, hH, hW]
  exact Cert.GcnAlgebra.ker_entry _ _ δ h (fun k => w k j) (β j) i

end Cert.KernelIdeal.KerValue

end
-- ==== Proof.KerChain.lean ====
/-
  The idealized kernel's result as a function of the argument arrays, at the ideal instance.

  Each region leaves in its output array the rectified affine layer of what its three input buffers held at its entry;
  the stretches of host operations between the regions turn a region's output into the next region's left operand (the
  edge aggregation of the scaled rows).  Composing: the result is the pooling tail of three nested layers of the inputs.
-/
import proofs.«143724_j64639257805082_2_alg».proof.Proof.KerFold
import proofs.«143724_j64639257805082_2_alg».proof.Proof.KerRegion
import proofs.«143724_j64639257805082_2_alg».proof.Proof.KerLayer

set_option maxRecDepth 16384

noncomputable section

namespace Cert.KernelIdeal.KerValue

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- The first layer's output. -/
abbrev out1 : Cert.Dense.Mat 100000 128 :=
  klayer (edges m c) (m ((c.tc : Thread nD τ).loc main_arg0)) (m ((c.tc : Thread nD τ).loc main_arg3)) (m ((c.tc : Thread nD τ).loc main_arg4))
/-- The second layer's output. -/
abbrev out2 : Cert.Dense.Mat 100000 128 :=
  klayer (edges m c) (out1 m c) (m ((c.tc : Thread nD τ).loc main_arg5)) (m ((c.tc : Thread nD τ).loc main_arg6))
/-- The third layer's output. -/
abbrev out3 : Cert.Dense.Mat 100000 128 :=
  klayer (edges m c) (out2 m c) (m ((c.tc : Thread nD τ).loc main_arg7)) (m ((c.tc : Thread nD τ).loc main_arg8))

/-- The first region's output array is the first layer. -/
theorem W4_out : W4 m ρ c (Proc.devRef .tc main_v33) = out1 m c := by
  have h := W4_arr m ρ c 3
  rw [Cert.KernelIdeal.RegionValue.region0_array] at h
  refine h.trans ?_
  show Cert.Dense.act (W3 m ρ c (Proc.devRef .tc main_v31)) (W3 m ρ c (Proc.devRef .tc main_arg3)) (W3 m ρ c (Proc.devRef .tc main_v32)) = _
  rw [W3_agg, W3_arg3, W3_bias]
  rfl

/-- The second region's output array is the second layer. -/
theorem W6_out : W6 m ρ c (Proc.devRef .tc main_v52) = out2 m c := by
  have h := W6_arr m ρ c 3
  rw [Cert.KernelIdeal.RegionValue.region1_array] at h
  refine h.trans ?_
  show Cert.Dense.act (W5 m ρ c (Proc.devRef .tc main_v50)) (W5 m ρ c (Proc.devRef .tc main_arg5)) (W5 m ρ c (Proc.devRef .tc main_v51)) = _
  rw [W5_agg, W5_arg5, W5_bias, W4_out, scaleMid_eq]
  rfl

/-- The third region's output array is the third layer. -/
theorem W8_out : W8 m ρ c (Proc.devRef .tc main_v71) = out3 m c := by
  have h := W8_arr m ρ c 3
  rw [Cert.KernelIdeal.RegionValue.region2_array] at h
  refine h.trans ?_
  show Cert.Dense.act (W7 m ρ c (Proc.devRef .tc main_v69)) (W7 m ρ c (Proc.devRef .tc main_arg7)) (W7 m ρ c (Proc.devRef .tc main_v70)) = _
  rw [W7_agg, W7_arg7, W7_bias, W6_out, scaleMid_eq]
  rfl

/-- The kernel's result: the pooling tail of the third layer. -/
theorem kernel_result :
    W9 m ρ c (Proc.devRef .tc main_v87) = tail (F := Ideal) (m ((c.tc : Thread nD τ).loc main_arg2)) (out3 m c) (m ((c.tc : Thread nD τ).loc main_arg9)) (m ((c.tc : Thread nD τ).loc main_arg10)) := by
  rw [W9_out, W8_out]

end Cert.KernelIdeal.KerValue

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«143724_j64639257805082_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.RefLayer.lean ====
/-
  The reference program's value, layer by layer.

  The reference is a three-layer graph convolution followed by a pooling tail. Its edge list is the given one with one
  self loop per node appended: `srcRaw` and `dstRaw` are the two rows of the edge array, each followed by `0, 1, …, N − 1`.
  The degree of a node is the number of edges whose destination is that node (a scatter of ones at `dstRaw`), `dis` is the
  guarded inverse square root of the degree (`0` where the degree is not positive), and the edge weight is
  `norm e = dis (src' e) · dis (dst' e)`, where `'` is the wrap of a negative index (`v < 0 ↦ v + N`) followed by the
  gather's clamp into `[0, N − 1]`.

  One layer maps node features `H` to `max (A + b, 0)`, where row `i` of `A` is the sum, over the edges whose raw destination
  is exactly `i`, of row `src' e` of `H · W` scaled by `norm e`. An edge whose raw destination is `i` has a destination
  that is not negative, so the wrap leaves it alone and the clamp is the identity on it: `dst' e = i`. Hence the weight of
  every edge landing at `i` is `dis (src' e) · dis i`, and when `dis`, `H`, `W` and `b` are real-valued the entry `(i, j)` of
  the layer is the real number `layerReal` of the edges landing at `i`.

  The definitions below spell each stage exactly as the program's composed term does, so that the program's result is,
  by unfolding, the tail applied to three nested layers.
-/
import proofs.«143724_j64639257805082_2_alg».proof.ReferenceIdeal
import Idealize.ShloMosaic.Lib.Affine
import proofs.«143724_j64639257805082_2_alg».proof.Proof.LibDense
import proofs.«143724_j64639257805082_2_alg».proof.Proof.LibBiasRow
import proofs.«143724_j64639257805082_2_alg».proof.Proof.LibHostLayout
import proofs.«143724_j64639257805082_2_alg».proof.Proof.LibRowGather
import proofs.«143724_j64639257805082_2_alg».proof.Proof.LibScatterRows
import proofs.«143724_j64639257805082_2_alg».proof.Proof.LibGcnAlgebra
import proofs.«143724_j64639257805082_2_alg».proof.Proof.RefRunPatched

noncomputable section

open scoped BigOperators

namespace Cert.ReferenceIdeal.RefValue

open Cert.ReferenceIdeal Idealize.ShloMosaic Idealize.ShloMosaic.ValueIdx
open Cert.ReferenceIdeal.Facts₀ Cert.ReferenceIdeal.Facts
open Cert.ScatterRows Cert.RowGather

variable [Facts]
variable {F : FTy → Type} [FloatOps F]

/-- The table of nodes is not empty. -/
theorem hN : 0 < 100000 := by decide

/-- The destinations: the second row of the edge array, then one self loop per node. -/
def dstRaw (a1 : IVec S2x1600000 32) : IVec S1700000 32 :=
  concatenate S1700000 0 [⟨S1600000, shapeCast _ (extractStridedSlice S1x1600000 ![1, 0] a1 slices_S2x1600000_S1x1600000_1_0) shapeCasts_S1x1600000_S1600000⟩, ⟨S100000, iotaInDim S100000 32 0⟩] concatenates_S1600000_S100000_S1700000_d0

/-- The sources: the first row of the edge array, then one self loop per node. -/
def srcRaw (a1 : IVec S2x1600000 32) : IVec S1700000 32 :=
  concatenate S1700000 0 [⟨S1600000, shapeCast _ (extractStridedSlice S1x1600000 ![0, 0] a1 slices_S2x1600000_S1x1600000_0_0) shapeCasts_S1x1600000_S1600000⟩, ⟨S100000, iotaInDim S100000 32 0⟩] concatenates_S1600000_S100000_S1700000_d0

/-- The wrap of a negative index: `v < 0 ↦ v + N`, every other index unchanged. -/
def normIdx (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- A vector of indices as a column of one-coordinate index vectors. -/
def col (v : IVec S1700000 32) : IVec S1700000x1 32 := broadcastInDim S1700000x1 ![0] bcast_S1700000_S1700000x1_0 v

/-- The degree of each node: a one for every edge whose destination is the node. -/
def deg (a1 : IVec S2x1600000 32) : FVec F S100000 .f32 :=
  Host.scatterAdd scatter_S100000_S1700000x1_S1700000_n_0_0_1 (broadcastInDim S100000 ![] bcast_S_S100000 (constant S_ .f32 0x00000000#32)) (col (dstRaw a1)) (broadcastInDim S1700000 ![] bcast_S_S1700000 (constant S_ .f32 0x3F800000#32))

/-- The guarded inverse square root of the degree. -/
def dis (a1 : IVec S2x1600000 32) : FVec F S100000 .f32 :=
  select (cmpf (F := F) .ogt (deg a1) (broadcastInDim S100000 ![] bcast_S_S100000 (constant S_ .f32 0x00000000#32))) (Host.rsqrt (deg a1)) (broadcastInDim S100000 ![] bcast_S_S100000 (id (constant S_ .f32 0x00000000#32)))

/-- The weight of each edge: the product of `dis` at its wrapped, clamped source and destination. -/
def norm (a1 : IVec S2x1600000 32) : FVec F S1700000 .f32 :=
  mulf (Host.gather gather_S100000_S1700000x1_S1700000_n_0_n_n_0_1_1 (dis a1) (col (normIdx (srcRaw a1)))) (Host.gather gather_S100000_S1700000x1_S1700000_n_0_n_n_0_1_1 (dis a1) (col (normIdx (dstRaw a1))))

/-- One layer: multiply by the weights, gather at the sources, scale each edge, sum at the raw destinations, add the bias
    and rectify. -/
def layer (a1 : IVec S2x1600000 32) (H : FVec F S100000x128 .f32) (W : FVec F S128x128 .f32) (b : FVec F S128 .f32) :
    FVec F S100000x128 .f32 :=
  maximumf (addf (Host.scatterAdd scatter_S100000x128_S1700000x1_S1700000x128_1_0_0_1 (broadcastInDim S100000x128 ![] bcast_S_S100000x128 (constant S_ .f32 0x00000000#32)) (col (dstRaw a1)) (mulf (Host.gather gather_S100000x128_S1700000x1_S1700000x128_1_0_n_n_0_1_1128 (Host.dotGeneral dot_S100000x128_S128x128_S100000x128_1_0_0_1_n_n none H W) (col (normIdx (srcRaw a1)))) (broadcastInDim S1700000x128 ![0, 1] bcast_S1700000x1_S1700000x128_0_1 (broadcastInDim S1700000x1 ![0] bcast_S1700000_S1700000x1_0 (norm a1))))) (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- The pooling tail: the mean of the node features over each group, then a dense layer. -/
def tail (a2 : IVec S100000 32) (h3 : FVec F S100000x128 .f32) (Wc : FVec F S128x3 .f32) (bc : FVec F S3 .f32) :
    FVec F S64x3 .f32 :=
  addf (Host.dotGeneral dot_S64x128_S128x3_S64x3_1_0_0_1_n_n none (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 a2) h3) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 a2) (broadcastInDim S100000 ![] bcast_S_S100000 (constant S_ .f32 0x3F800000#32))) (broadcastInDim S64 ![] bcast_S_S64 (constant S_ .f32 0x3F800000#32)))))) Wc) (broadcastInDim S64x3 ![0, 1] bcast_S1x3_S64x3_0_1 (broadcastInDim S1x3 ![1] bcast_S3_S1x3_1 bc))

/-- An index column read at an entry is the index vector there. -/
theorem col_apply (v : IVec S1700000 32) (e : Fin 1700000) : col v (ix2 e (0 : Fin 1)) = v (ix1 e) :=
  Cert.HostLayout.bcast_vec_col v bcast_S1700000_S1700000x1_0 e 0

/-- The wrap leaves an index that is not negative alone. -/
theorem normIdx_of_nonneg (v : IVec S1700000 32) (e : Fin 1700000) (h : 0 ≤ (v (ix1 e)).toInt) :
    normIdx v (ix1 e) = v (ix1 e) := by
  show Scalar.select (IntOp.cmpi .slt (v (ix1 e)) 0#32) (IntOp.addi (v (ix1 e)) 100000#32) (v (ix1 e)) = _
  have hc : ¬ IntOp.cmpi .slt (v (ix1 e)) 0#32 = 1 := by
    intro hh
    have h1 : (v (ix1 e)).toInt < (0#32 : BitVec 32).toInt := IntOp.cmpi_slt.mp hh
    have h0 : (0#32 : BitVec 32).toInt = 0 := by decide
    omega
  unfold Scalar.select
  rw [if_neg hc]

/-- (C) An edge whose raw destination is `i` has wrapped, clamped destination `i`. -/
theorem dst_row (a1 : IVec S2x1600000 32) (i : Fin 100000) (e : Fin 1700000) (he : e ∈ landsAt (col (dstRaw a1)) i) :
    rowOf hN (col (normIdx (dstRaw a1))) e = i := by
  have h := (mem_landsAt _ i e).mp he
  rw [col_apply] at h
  refine rowOf_of_toInt hN _ e i ?_
  rw [col_apply, normIdx_of_nonneg _ _ (by rw [h]; exact Int.natCast_nonneg _), h]

/-! ### The stages over abstract operands

  Each stage is first read at an index with its operands abstract (any degree vector, any index columns, any edge
  weights), so that nothing about the edge list is unfolded; the program's stages are instances. -/

/-- A product of float arrays read at an index. -/
theorem mulf_apply {s : Shape} (x y : FVec Ideal s .f32) (j : s.Idx) : mulf x y j = x j * y j := rfl

/-- The edge weights over an abstract scale vector and abstract index columns. -/
theorem norm_core (d : FVec Ideal S100000 .f32) (iS iD : IVec S1700000x1 32) (e : Fin 1700000) :
    mulf (Host.gather gather_S100000_S1700000x1_S1700000_n_0_n_n_0_1_1 d iS)
        (Host.gather gather_S100000_S1700000x1_S1700000_n_0_n_n_0_1_1 d iD) (ix1 e)
      = d (ix1 (rowOf hN iS e)) * d (ix1 (rowOf hN iD e)) := by
  rw [mulf_apply,
    elemGather_apply hN gather_S100000_S1700000x1_S1700000_n_0_n_n_0_1_1 rfl rfl rfl rfl rfl rfl rfl d iS e,
    elemGather_apply hN gather_S100000_S1700000x1_S1700000_n_0_n_n_0_1_1 rfl rfl rfl rfl rfl rfl rfl d iD e]

/-- The guarded inverse square root over an abstract degree vector, read at an index. -/
theorem dis_core (dg : FVec Ideal S100000 .f32) (i : Fin 100000) :
    select (cmpf (F := Ideal) .ogt dg (broadcastInDim S100000 ![] bcast_S_S100000 (constant S_ .f32 0x00000000#32)))
        (Host.rsqrt dg) (broadcastInDim S100000 ![] bcast_S_S100000 (id (constant S_ .f32 0x00000000#32))) (ix1 i)
      = Scalar.select (FloatOps.cmpf (F := Ideal) .ogt (dg (ix1 i)) (FloatOps.ofBits (F := Ideal) .f32 0x00000000#32))
          (FloatOps.hostUnary (F := Ideal) .rsqrt (dg (ix1 i))) (FloatOps.ofBits (F := Ideal) .f32 0x00000000#32) := rfl

/-- (B) The weight of an edge is `dis` at its source times `dis` at its destination. -/
theorem norm_apply (a1 : IVec S2x1600000 32) (e : Fin 1700000) :
    norm (F := Ideal) a1 (ix1 e)
      = dis (F := Ideal) a1 (ix1 (rowOf hN (col (normIdx (srcRaw a1))) e))
        * dis (F := Ideal) a1 (ix1 (rowOf hN (col (normIdx (dstRaw a1))) e)) := by
  unfold norm
  exact norm_core _ _ _ e

/-- (A) `dis` is real-valued. -/
theorem dis_is_real (a1 : IVec S2x1600000 32) :
    ∃ δ : Fin 100000 → ℝ, ∀ i, dis (F := Ideal) a1 (ix1 i) = ((δ i : ℝ) : EReal) := by
  choose δ hδ using fun i : Fin 100000 => Cert.GcnAlgebra.dis_real (deg (F := Ideal) a1 (ix1 i))
  refine ⟨δ, fun i => ?_⟩
  unfold dis
  rw [dis_core]
  exact hδ i

/-- A rectified bias layer whose bias is a vector laid out as one row, read at an entry. -/
theorem reluBias_row_apply {M N : ℕ} (X : Cert.Dense.Mat M N) (b : Cert.Dense.Row N) (p : Fin M) (q : Fin N) :
    Cert.Dense.reluBias X (Cert.Dense.row b) (ix2 p q) = max (X (ix2 p q) + b (ix1 q)) 0 := rfl

/-- One layer over abstract index columns and abstract edge weights, read at an entry: the sum, over the edges landing
    at the row, of the gathered row of `H · W` scaled by the edge's weight, plus the bias, rectified. -/
theorem layer_core (iD iS : IVec S1700000x1 32) (nrm : FVec Ideal S1700000 .f32)
    (H : FVec Ideal S100000x128 .f32) (W : FVec Ideal S128x128 .f32) (b : FVec Ideal S128 .f32)
    (i : Fin 100000) (j : Fin 128) :
    maximumf (addf (Host.scatterAdd scatter_S100000x128_S1700000x1_S1700000x128_1_0_0_1 (broadcastInDim S100000x128 ![] bcast_S_S100000x128 (constant S_ .f32 0x00000000#32)) iD (mulf (Host.gather gather_S100000x128_S1700000x1_S1700000x128_1_0_n_n_0_1_1128 (Host.dotGeneral dot_S100000x128_S128x128_S100000x128_1_0_0_1_n_n none H W) iS) (broadcastInDim S1700000x128 ![0, 1] bcast_S1700000x1_S1700000x128_0_1 (broadcastInDim S1700000x1 ![0] bcast_S1700000_S1700000x1_0 nrm)))) (broadcastInDim S100000x128 ![0, 1] bcast_S1x128_S100000x128_0_1 (broadcastInDim S1x128 ![1] bcast_S128_S1x128_1 b))) (broadcastInDim S100000x128 ![] bcast_S_S100000x128 (constant S_ .f32 0x00000000#32)) (ix2 i j)
      = max ((∑ e ∈ landsAt iD i, (∑ k : Fin 128, H (ix2 (rowOf hN iS e) k) * W (ix2 k j)) * nrm (ix1 e)) + b (ix1 j)) 0 := by
  have h0 : constant (F := Ideal) S_ .f32 0x00000000#32 ix0 = 0 := Ideal.ofBits_zero_f32
  rw [Cert.Dense.hostReluBias, reluBias_row_apply,
    scatterRows_apply scatter_S100000x128_S1700000x1_S1700000x128_1_0_0_1 rfl rfl rfl rfl,
    Cert.HostLayout.bcast_scalar_mat, h0, zero_add]
  refine congrArg (fun t => max (t + b (ix1 j)) 0) (Finset.sum_congr rfl (fun e _ => ?_))
  rw [mulf_apply,
    rowGather_apply hN gather_S100000x128_S1700000x1_S1700000x128_1_0_n_n_0_1_1128 rfl rfl rfl rfl rfl rfl rfl,
    Cert.Dense.hostDot_eq_mm dot_S100000x128_S128x128_S100000x128_1_0_0_1_n_n rfl rfl rfl rfl rfl rfl,
    Cert.Dense.mm_apply, Cert.HostLayout.bcast_col_mat, Cert.HostLayout.bcast_vec_col]

/-- (D) With real-valued scales, features, weights and bias, the entry `(i, j)` of a layer is the real number
    `layerReal` of the edges landing at `i`. -/
theorem layer_real (a1 : IVec S2x1600000 32) (δ : Fin 100000 → ℝ)
    (hδ : ∀ i, dis (F := Ideal) a1 (ix1 i) = ((δ i : ℝ) : EReal))
    (H : FVec Ideal S100000x128 .f32) (W : FVec Ideal S128x128 .f32) (b : FVec Ideal S128 .f32)
    (h : Fin 100000 → Fin 128 → ℝ) (w : Fin 128 → Fin 128 → ℝ) (β : Fin 128 → ℝ)
    (hH : ∀ i k, H (ix2 i k) = ((h i k : ℝ) : EReal)) (hW : ∀ k j, W (ix2 k j) = ((w k j : ℝ) : EReal))
    (hb : ∀ j, b (ix1 j) = ((β j : ℝ) : EReal)) (i : Fin 100000) (j : Fin 128) :
    layer (F := Ideal) a1 H W b (ix2 i j)
      = ((Cert.GcnAlgebra.layerReal (landsAt (col (dstRaw a1)) i) (rowOf hN (col (normIdx (srcRaw a1)))) δ h
          (fun k => w k j) (β j) (δ i) : ℝ) : EReal) := by
  unfold layer
  rw [layer_core]
  have hsum : ∀ e ∈ landsAt (col (dstRaw a1)) i,
      (∑ k : Fin 128, H (ix2 (rowOf hN (col (normIdx (srcRaw a1))) e) k) * W (ix2 k j)) * norm (F := Ideal) a1 (ix1 e)
        = (∑ k : Fin 128, ((h (rowOf hN (col (normIdx (srcRaw a1))) e) k : ℝ) : EReal) * ((w k j : ℝ) : EReal))
          * (((δ (rowOf hN (col (normIdx (srcRaw a1))) e) : ℝ) : EReal)
            * ((δ (rowOf hN (col (normIdx (dstRaw a1))) e) : ℝ) : EReal)) := by
    intro e _
    rw [norm_apply, hδ, hδ]
    simp only [hH, hW]
  rw [Finset.sum_congr rfl hsum, hb]
  exact Cert.GcnAlgebra.ref_entry _ _ (rowOf hN (col (normIdx (dstRaw a1)))) δ h (fun k => w k j) (β j) i
    (fun e he => dst_row a1 i e he)

/-! ### The program's result -/

section Result

open Cert.ReferenceIdeal.Gen Idealize.ShloMosaic.TcCoe Idealize.SL.Sem

set_option maxRecDepth 8192 in
/-- (E) The program's composed result is the tail applied to three nested layers of the arguments. -/
theorem res_eq (m : (ℓ : Loc nD τ sig) → Buf (Elt Ideal) ℓ) (c : Dev nD) :
    Cert.ReferenceIdeal.ValueP.res_main_v99 (F := Ideal) m c
      = tail (F := Ideal) (m ((c.tc : Thread nD τ).loc main_arg2))
          (layer (m ((c.tc : Thread nD τ).loc main_arg1))
            (layer (m ((c.tc : Thread nD τ).loc main_arg1))
              (layer (m ((c.tc : Thread nD τ).loc main_arg1)) (m ((c.tc : Thread nD τ).loc main_arg0))
                (m ((c.tc : Thread nD τ).loc main_arg3)) (m ((c.tc : Thread nD τ).loc main_arg4)))
              (m ((c.tc : Thread nD τ).loc main_arg5)) (m ((c.tc : Thread nD τ).loc main_arg6)))
            (m ((c.tc : Thread nD τ).loc main_arg7)) (m ((c.tc : Thread nD τ).loc main_arg8)))
          (m ((c.tc : Thread nD τ).loc main_arg9)) (m ((c.tc : Thread nD τ).loc main_arg10)) := by
  unfold Cert.ReferenceIdeal.ValueP.res_main_v99 tail layer norm dis deg
  rfl

end Result

end Cert.ReferenceIdeal.RefValue

end
-- ==== Proof.Bridge.lean ====
/-
  The two programs spell the same host stages with the same operations.

  The destination column, the wrapped source column, the guarded inverse square root of the degree and the pooling tail
  are written once over the kernel program's vocabulary and once over the reference program's.  The two vocabularies name
  the same literal shapes and the same dimension records, and their side conditions are propositions, so each pair of
  terms is one term: the equalities hold by unfolding the definitions, with the argument arrays left as variables.
-/
import proofs.«143724_j64639257805082_2_alg».proof.Proof.Gen.ReferenceIdeal
import proofs.«143724_j64639257805082_2_alg».proof.Proof.KerDefs
import proofs.«143724_j64639257805082_2_alg».proof.Proof.RefLayer
import Idealize.ShloMosaic.PureOps.Ideal.Laws

noncomputable section

namespace Cert.Bridge

open Idealize.ShloMosaic

/-- The destination column is one term on both sides. -/
theorem col_dst (a1 : IVec ⟨2, ![2, 1600000]⟩ 32) :
    Cert.KernelIdeal.KerValue.col (Cert.KernelIdeal.KerValue.dstRaw a1)
      = Cert.ReferenceIdeal.RefValue.col (Cert.ReferenceIdeal.RefValue.dstRaw a1) := rfl

/-- The wrapped source column is one term on both sides. -/
theorem col_src (a1 : IVec ⟨2, ![2, 1600000]⟩ 32) :
    Cert.KernelIdeal.KerValue.col (Cert.KernelIdeal.KerValue.normIdx (Cert.KernelIdeal.KerValue.srcRaw a1))
      = Cert.ReferenceIdeal.RefValue.col (Cert.ReferenceIdeal.RefValue.normIdx (Cert.ReferenceIdeal.RefValue.srcRaw a1)) := rfl

/-- The inverse square root of the degree is one term on both sides. -/
theorem dis_eq (a1 : IVec ⟨2, ![2, 1600000]⟩ 32) :
    Cert.KernelIdeal.KerValue.dis (F := Ideal) a1 = Cert.ReferenceIdeal.RefValue.dis (F := Ideal) a1 := rfl

/-- The pooling tail is one term on both sides. -/
theorem tail_eq (a2 : IVec ⟨1, ![100000]⟩ 32) (h3 : FVec Ideal ⟨2, ![100000, 128]⟩ .f32)
    (Wc : FVec Ideal ⟨2, ![128, 3]⟩ .f32) (bc : FVec Ideal ⟨1, ![3]⟩ .f32) :
    Cert.KernelIdeal.KerValue.tail (F := Ideal) a2 h3 Wc bc = Cert.ReferenceIdeal.RefValue.tail (F := Ideal) a2 h3 Wc bc := rfl

end Cert.Bridge

end
-- ==== Proof.Chain.lean ====
/-
  The three nested layers agree on the two sides.

  Both programs compute a graph-convolution layer from the same edge list, the same per-node scales and the same
  weights, in two orders of operations. Once the index columns and the scale vector of the two programs are identified,
  and the node features, weights and bias are real-valued, an entry of either program's layer is the same real number,
  the layer of the edges landing at that node computed on the reals. The output of a layer is then again real-valued,
  so the argument repeats: three nested layers agree entry by entry.
-/
import proofs.«143724_j64639257805082_2_alg».proof.Proof.KerLayer
import proofs.«143724_j64639257805082_2_alg».proof.Proof.RefLayer
import proofs.«143724_j64639257805082_2_alg».proof.Proof.Bridge

noncomputable section

namespace Cert.Chain

open Idealize.ShloMosaic Idealize.ShloMosaic.ValueIdx Cert.ScatterRows Cert.RowGather

/-- One layer on the reals, over the edge list's index columns: entry `(i, j)` is the real layer of the edges landing
    at `i`, read in column `j` of the weights. -/
def realLayer (a1 : IVec ⟨2, ![2, 1600000]⟩ 32) (δ : Fin 100000 → ℝ) (h : Fin 100000 → Fin 128 → ℝ)
    (w : Fin 128 → Fin 128 → ℝ) (β : Fin 128 → ℝ) : Fin 100000 → Fin 128 → ℝ :=
  fun i j => Cert.GcnAlgebra.layerReal (landsAt (Cert.ReferenceIdeal.RefValue.col (Cert.ReferenceIdeal.RefValue.dstRaw a1)) i)
    (rowOf Cert.ReferenceIdeal.RefValue.hN (Cert.ReferenceIdeal.RefValue.col (Cert.ReferenceIdeal.RefValue.normIdx (Cert.ReferenceIdeal.RefValue.srcRaw a1)))) δ h (fun k => w k j) (β j) (δ i)

/-- One step: with the index columns and scales of the two programs identified and real-valued operands (the features
    of the two sides possibly different arrays with the same real entries), both layers are the real layer. -/
theorem layer_step (a1 : IVec ⟨2, ![2, 1600000]⟩ 32)
    (hdst : Cert.KernelIdeal.KerValue.col (Cert.KernelIdeal.KerValue.dstRaw a1) = Cert.ReferenceIdeal.RefValue.col (Cert.ReferenceIdeal.RefValue.dstRaw a1))
    (hsrc : Cert.KernelIdeal.KerValue.col (Cert.KernelIdeal.KerValue.normIdx (Cert.KernelIdeal.KerValue.srcRaw a1)) = Cert.ReferenceIdeal.RefValue.col (Cert.ReferenceIdeal.RefValue.normIdx (Cert.ReferenceIdeal.RefValue.srcRaw a1)))
    (δ : Fin 100000 → ℝ)
    (hδK : ∀ i, Cert.KernelIdeal.KerValue.dis (F := Ideal) a1 (ix1 i) = ((δ i : ℝ) : EReal))
    (hδR : ∀ i, Cert.ReferenceIdeal.RefValue.dis (F := Ideal) a1 (ix1 i) = ((δ i : ℝ) : EReal))
    (HK HR : FVec Ideal ⟨2, ![100000, 128]⟩ .f32) (W : FVec Ideal ⟨2, ![128, 128]⟩ .f32) (b : FVec Ideal ⟨1, ![128]⟩ .f32)
    (h : Fin 100000 → Fin 128 → ℝ) (w : Fin 128 → Fin 128 → ℝ) (β : Fin 128 → ℝ)
    (hHK : ∀ i k, HK (ix2 i k) = ((h i k : ℝ) : EReal)) (hHR : ∀ i k, HR (ix2 i k) = ((h i k : ℝ) : EReal))
    (hW : ∀ k j, W (ix2 k j) = ((w k j : ℝ) : EReal)) (hb : ∀ j, b (ix1 j) = ((β j : ℝ) : EReal)) :
    (∀ i j, Cert.KernelIdeal.KerValue.klayer a1 HK W b (ix2 i j) = ((realLayer a1 δ h w β i j : ℝ) : EReal))
      ∧ (∀ i j, Cert.ReferenceIdeal.RefValue.layer (F := Ideal) a1 HR W b (ix2 i j) = ((realLayer a1 δ h w β i j : ℝ) : EReal)) := by
  refine ⟨fun i j => ?_, fun i j => ?_⟩
  · have hk := Cert.KernelIdeal.KerValue.klayer_real a1 δ hδK HK W b h w β hHK hW hb i j
    rw [hdst, hsrc] at hk
    exact hk
  · exact Cert.ReferenceIdeal.RefValue.layer_real a1 δ hδR HR W b h w β hHR hW hb i j

/-- The three nested layers of the two programs are the same array. -/
theorem layers_agree (a1 : IVec ⟨2, ![2, 1600000]⟩ 32)
    (hdst : Cert.KernelIdeal.KerValue.col (Cert.KernelIdeal.KerValue.dstRaw a1) = Cert.ReferenceIdeal.RefValue.col (Cert.ReferenceIdeal.RefValue.dstRaw a1))
    (hsrc : Cert.KernelIdeal.KerValue.col (Cert.KernelIdeal.KerValue.normIdx (Cert.KernelIdeal.KerValue.srcRaw a1)) = Cert.ReferenceIdeal.RefValue.col (Cert.ReferenceIdeal.RefValue.normIdx (Cert.ReferenceIdeal.RefValue.srcRaw a1)))
    (hdis : Cert.KernelIdeal.KerValue.dis (F := Ideal) a1 = Cert.ReferenceIdeal.RefValue.dis (F := Ideal) a1)
    (x : FVec Ideal ⟨2, ![100000, 128]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 128]⟩ .f32) (b3 : FVec Ideal ⟨1, ![128]⟩ .f32)
    (hx : ∀ i, ∃ r : ℝ, x i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hW3 : ∀ i, ∃ r : ℝ, W3 i = (r : EReal)) (hb3 : ∀ i, ∃ r : ℝ, b3 i = (r : EReal)) :
    Cert.KernelIdeal.KerValue.klayer a1 (Cert.KernelIdeal.KerValue.klayer a1 (Cert.KernelIdeal.KerValue.klayer a1 x W1 b1) W2 b2) W3 b3
      = Cert.ReferenceIdeal.RefValue.layer (F := Ideal) a1 (Cert.ReferenceIdeal.RefValue.layer a1 (Cert.ReferenceIdeal.RefValue.layer a1 x W1 b1) W2 b2) W3 b3 := by
  obtain ⟨δ, hδR⟩ := Cert.ReferenceIdeal.RefValue.dis_is_real a1
  have hδK : ∀ i, Cert.KernelIdeal.KerValue.dis (F := Ideal) a1 (ix1 i) = ((δ i : ℝ) : EReal) := fun i => by rw [hdis]; exact hδR i
  choose rx hrx using hx
  choose rW1 hrW1 using hW1
  choose rb1 hrb1 using hb1
  choose rW2 hrW2 using hW2
  choose rb2 hrb2 using hb2
  choose rW3 hrW3 using hW3
  choose rb3 hrb3 using hb3
  obtain ⟨k1, r1⟩ := layer_step a1 hdst hsrc δ hδK hδR x x W1 b1 (fun i k => rx (ix2 i k)) (fun k j => rW1 (ix2 k j))
    (fun j => rb1 (ix1 j)) (fun i k => hrx _) (fun i k => hrx _) (fun k j => hrW1 _) (fun j => hrb1 _)
  obtain ⟨k2, r2⟩ := layer_step a1 hdst hsrc δ hδK hδR (Cert.KernelIdeal.KerValue.klayer a1 x W1 b1) (Cert.ReferenceIdeal.RefValue.layer (F := Ideal) a1 x W1 b1) W2 b2
    _ (fun k j => rW2 (ix2 k j)) (fun j => rb2 (ix1 j)) k1 r1 (fun k j => hrW2 _) (fun j => hrb2 _)
  obtain ⟨k3, r3⟩ := layer_step a1 hdst hsrc δ hδK hδR (Cert.KernelIdeal.KerValue.klayer a1 (Cert.KernelIdeal.KerValue.klayer a1 x W1 b1) W2 b2)
    (Cert.ReferenceIdeal.RefValue.layer (F := Ideal) a1 (Cert.ReferenceIdeal.RefValue.layer a1 x W1 b1) W2 b2) W3 b3
    _ (fun k j => rW3 (ix2 k j)) (fun j => rb3 (ix1 j)) k2 r2 (fun k j => hrW3 _) (fun j => hrb3 _)
  funext idx
  obtain ⟨i, j, rfl⟩ : ∃ i j, idx = ix2 i j := ⟨_, _, eq_ix2 idx⟩
  rw [k3 i j, r3 i j]

/-- The three nested layers of the two programs are the same array: the index columns and the scale vector of the two
    programs are the same terms, so only the real-valuedness of the operands remains as a hypothesis. -/
theorem layers_eq (a1 : IVec ⟨2, ![2, 1600000]⟩ 32)
    (x : FVec Ideal ⟨2, ![100000, 128]⟩ .f32)
    (W1 : FVec Ideal ⟨2, ![128, 128]⟩ .f32) (b1 : FVec Ideal ⟨1, ![128]⟩ .f32)
    (W2 : FVec Ideal ⟨2, ![128, 128]⟩ .f32) (b2 : FVec Ideal ⟨1, ![128]⟩ .f32)
    (W3 : FVec Ideal ⟨2, ![128, 128]⟩ .f32) (b3 : FVec Ideal ⟨1, ![128]⟩ .f32)
    (hx : ∀ i, ∃ r : ℝ, x i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hW3 : ∀ i, ∃ r : ℝ, W3 i = (r : EReal)) (hb3 : ∀ i, ∃ r : ℝ, b3 i = (r : EReal)) :
    Cert.KernelIdeal.KerValue.klayer a1 (Cert.KernelIdeal.KerValue.klayer a1 (Cert.KernelIdeal.KerValue.klayer a1 x W1 b1) W2 b2) W3 b3
      = Cert.ReferenceIdeal.RefValue.layer (F := Ideal) a1 (Cert.ReferenceIdeal.RefValue.layer a1 (Cert.ReferenceIdeal.RefValue.layer a1 x W1 b1) W2 b2) W3 b3 :=
  layers_agree a1 (Cert.Bridge.col_dst a1) (Cert.Bridge.col_src a1) (Cert.Bridge.dis_eq a1) x W1 b1 W2 b2 W3 b3
    hx hW1 hb1 hW2 hb2 hW3 hb3

end Cert.Chain

end
-- ==== Proof.FiniteArgs.lean ====
/-
  The precondition read back: every entry of the float inputs is a real number.

  The printed precondition is a conjunction, one conjunct per float input `a`, of "every entry of `a` has absolute value
  below `+∞`": an elementwise comparison `|a| < +∞` reduced by `and` over all axes from the constant `1`, and the
  conjuncts joined by `and`. It is claimed to be `1`. A conjunction of one-bit words is `1` exactly when each word is,
  and a reduction by `and` over all axes that came out `1` had a `1` at every index; so at every index `i` of every float
  input the comparison `max (a i) (-(a i)) < ⊤` holds on the extended reals (the bit pattern `0x7F800000` denotes `⊤`).
  That excludes `a i = ⊤` (its absolute value is `⊤`) and `a i = ⊥` (its negation is `⊤`), which leaves the coerced reals.
-/
import proofs.«143724_j64639257805082_2_alg».proof.Pre_finite_inputs
import Idealize.ShloMosaic.Lib.ReduceAll
import Idealize.ShloMosaic.PureOps.Ideal.Laws

noncomputable section

namespace Cert.FiniteArgs

open Idealize.ShloMosaic Cert.Pre_finite_inputs

/-- The rank-0 shape has one index. -/
instance : Subsingleton S_.Idx := ⟨fun a b => funext fun d => d.elim0⟩

/-- An extended real whose absolute value `max x (-x)` is below `+∞` is a real: `⊤` and `⊥` both have absolute value `⊤`. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hinf : Ideal.ofBits .f32 0x7F800000#32 = ⊤ := by simp [Ideal.ofBits, Ideal.ieee]
  rw [Ideal.cmpf_def, Ideal.hostAbsf_def, Ideal.absf_def, Ideal.ofBits_def, hinf] at h
  unfold Ideal.cmp at h
  induction x using EReal.rec with
  | bot => simp at h
  | top => simp at h
  | coe r => exact ⟨r, rfl⟩

/-- Under the precondition every entry of the feature matrix, of the three weight matrices and of the three bias
    vectors is a real number. -/
theorem real_of_pre [Facts] (a0 : FVec Ideal S100000x128 .f32) (a1 : IVec S2x1600000 32) (a2 : IVec S100000 32)
    (a3 : FVec Ideal S128x128 .f32) (a4 : FVec Ideal S128 .f32) (a5 : FVec Ideal S128x128 .f32)
    (a6 : FVec Ideal S128 .f32) (a7 : FVec Ideal S128x128 .f32) (a8 : FVec Ideal S128 .f32)
    (a9 : FVec Ideal S128x3 .f32) (a10 : FVec Ideal S3 .f32)
    (h : fn (F := Ideal) a0 a1 a2 a3 a4 a5 a6 a7 a8 a9 a10 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) := by
  have e := congrFun h (fun d => d.elim0)
  dsimp only [fn, fn_part1, fn_part2, andi] at e
  simp only [IntOp.andi_eq_one] at e
  obtain ⟨⟨⟨⟨⟨⟨⟨⟨h0, h3⟩, h4⟩, h5⟩, h6⟩, h7⟩, h8⟩, -⟩, -⟩ := e
  exact ⟨fun i => real_of_abs_lt _ (Host.reduce_andi_all _ _ _ _ _ h0 i),
    fun i => real_of_abs_lt _ (Host.reduce_andi_all _ _ _ _ _ h3 i),
    fun i => real_of_abs_lt _ (Host.reduce_andi_all _ _ _ _ _ h4 i),
    fun i => real_of_abs_lt _ (Host.reduce_andi_all _ _ _ _ _ h5 i),
    fun i => real_of_abs_lt _ (Host.reduce_andi_all _ _ _ _ _ h6 i),
    fun i => real_of_abs_lt _ (Host.reduce_andi_all _ _ _ _ _ h7 i),
    fun i => real_of_abs_lt _ (Host.reduce_andi_all _ _ _ _ _ h8 i)⟩

end Cert.FiniteArgs

end
-- ==== Proof.lean ====
/-
  A three-layer graph convolution with mean pooling, as a kernel and as its reference, on the extended reals.

  Both programs build the same edge list (the given edges and one self loop per node), the same in-degree and the same
  scale `dis = deg^(-1/2)` (zero where the degree is not positive), and end with the same pooling tail.  They differ in how
  a layer `H ↦ max (Â H W + b, 0)` is evaluated, `Â` the adjacency normalised by `dis` on both sides.  The reference
  multiplies by the weights first, gathers the rows of `H W` along the edges, scales each edge by `dis (src) · dis (dst)`
  and sums at the destinations.  The kernel scales the rows of `H` by `dis`, gathers and sums them at the destinations,
  scales the sums by `dis` of the destination, and multiplies by the weights last, inside a blocked matrix kernel that also
  adds the bias and rectifies.  The two agree by distributivity, which holds on the reals but not at the infinities: this is
  where the precondition is used — the features, weights and biases are real-valued, `dis` is real-valued at every degree,
  and every layer's output is then again real-valued, so the argument repeats for the three layers.  An edge whose
  destination is out of range is dropped by both sums; one that lands at node `i` has its destination's scale read at `i`
  on both sides.

  The kernel's value is read off its run (the fold of host stretches and regions from the launch memory, each region's
  output array the layer of its entry buffers); the reference's off its straight-line run; the frames of the two kernel
  programs are the generated ones, the reference's frame is its run with the result dropped; the idealisation ledger is
  empty.
-/
import proofs.«143724_j64639257805082_2_alg».proof.Defs
import proofs.«143724_j64639257805082_2_alg».proof.Proof.Gen.Kernel
import proofs.«143724_j64639257805082_2_alg».proof.Proof.Gen.Kernel.Skeleton
import proofs.«143724_j64639257805082_2_alg».proof.Proof.Gen.Kernel.Launch
import proofs.«143724_j64639257805082_2_alg».proof.Proof.Gen.Kernel.Points
import proofs.«143724_j64639257805082_2_alg».proof.Proof.Gen.Kernel.Frame
import proofs.«143724_j64639257805082_2_alg».proof.Proof.Gen.KernelIdeal
import proofs.«143724_j64639257805082_2_alg».proof.Proof.Gen.KernelIdeal.Skeleton
import proofs.«143724_j64639257805082_2_alg».proof.Proof.Gen.KernelIdeal.Launch
import proofs.«143724_j64639257805082_2_alg».proof.Proof.Gen.KernelIdeal.Points
import proofs.«143724_j64639257805082_2_alg».proof.Proof.Gen.KernelIdeal.Frame
import proofs.«143724_j64639257805082_2_alg».proof.Proof.Gen.ReferenceIdeal
import proofs.«143724_j64639257805082_2_alg».proof.Proof.Gen.Pre_finite_inputs
import proofs.«143724_j64639257805082_2_alg».proof.Proof.KerRun
import proofs.«143724_j64639257805082_2_alg».proof.Proof.KerChain
import proofs.«143724_j64639257805082_2_alg».proof.Proof.RefRunPatched
import proofs.«143724_j64639257805082_2_alg».proof.Proof.RefLayer
import proofs.«143724_j64639257805082_2_alg».proof.Proof.Bridge
import proofs.«143724_j64639257805082_2_alg».proof.Proof.Chain
import proofs.«143724_j64639257805082_2_alg».proof.Proof.FiniteArgs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the pooling tail of the same three nested layers of the arguments. -/
theorem algebraic : Cert.algebraic_KernelIdeal_ReferenceIdeal := by
  intro m ρ m' ρ' hpre hagree
  refine ⟨fun c => Cert.KernelIdeal.KerValue.tail (F := Ideal) (m ((c.tc : Thread Cert.KernelIdeal.nD Cert.KernelIdeal.τ).loc Cert.KernelIdeal.main_arg2)) (Cert.KernelIdeal.KerValue.out3 m c) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KerValue.kernel_result m ρ c), (h c).2⟩)
      (Cert.KernelIdeal.RunValue.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10⟩ := hagree c
    obtain ⟨r0, r3, r4, r5, r6, r7, r8⟩ := Cert.FiniteArgs.real_of_pre _ _ _ _ _ _ _ _ _ _ _ (hpre c)
    refine (Cert.ReferenceIdeal.RefValue.res_eq m' c).trans ?_
    rw [e0, e1, e2, e3, e4, e5, e6, e7, e8, e9, e10]
    refine (Cert.Bridge.tail_eq _ _ _ _).symm.trans ?_
    refine congrArg (fun h3 => Cert.KernelIdeal.KerValue.tail (F := Ideal) (m ((c.tc : Thread Cert.KernelIdeal.nD Cert.KernelIdeal.τ).loc Cert.KernelIdeal.main_arg2)) h3 (m ((c.tc : Thread Cert.KernelIdeal.nD Cert.KernelIdeal.τ).loc Cert.KernelIdeal.main_arg9)) (m ((c.tc : Thread Cert.KernelIdeal.nD Cert.KernelIdeal.τ).loc Cert.KernelIdeal.main_arg10))) ?_
    exact (Cert.Chain.layers_eq (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) r0 r3 r4 r5 r6 r7 r8).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
